-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩

abbrev nBuf : Space → Nat
  | .hbm => 66
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S1x256, .f32⟩
  | .hbm, ⟨33, _⟩ => ⟨S50000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S1x256, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_v45 : Ref sig .tc := ⟨.hbm, 73, rfl⟩
abbrev main_c_4 : Ref sig .tc := ⟨.hbm, 74, rfl⟩
abbrev main_v46 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call4_cst : Ref sig .tc := ⟨.hbm, 92, rfl⟩
abbrev main_call4_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run with its RESULT named.

  @main is three stretches of host operations, each followed by one region (one graph-convolution layer's
  two-layer perceptron over ten tiles of 5000 rows).  The frame certificate of the program follows the
  contents of every buffer from boundary to boundary: a stretch applies its operations to what it finds, a
  region leaves each of its arrays at what the pipeline's write-backs fold to and every other buffer as it
  was.  The last boundary's contents are `Gen.W6`.  Here the same launch theorem is read once more, keeping,
  beside the fourteen argument arrays, the returned buffer `main_v42`: at the end of every weakly fair
  execution it holds `Gen.W6` at that buffer.  What that array IS, as a function of the arguments, is the
  business of the modules that read the boundaries back (the regions' outputs and the host stretches).
-/
import proofs.«181978_j11665131176543_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault; the returned buffer ends at the
    last boundary's contents, and the argument arrays end as launched. -/
theorem run_named : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.HostRead.lean ====
/-
  What each stretch of host operations of the kernel's @main leaves in the buffers, read at a VARIABLE valuation.

  Each of the three layers begins with the same host computation: the neighbour sum of a feature table — the rows
  of the table gathered at the edges' sources (a negative source wrapped by the number of rows), then added into a
  zero table at the edges' destinations. `agg128` / `agg256` name that function of the table and of the two index
  vectors; the reference's stage values `val_main_v13`, `val_main_v34`, `val_main_v55` are the same function of the
  reference's own table and index vectors, by unfolding. The remaining host operations reshape a bias vector into a
  one-row matrix. Every other buffer a stretch does not write keeps what it held.
-/
import proofs.«181978_j11665131176543_1_alg».proof.Proof.Gen.KernelIdeal.Launch
import proofs.«181978_j11665131176543_1_alg».proof.Proof.Gen.ReferenceIdeal.Read
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## The neighbour sum -/

/-- The neighbour sum of a 128-column feature table: into a zero table, at the destinations `dst`, the sum of the
    rows gathered at the sources `src` (a negative source read 50000 rows further on). -/
def agg128 (feat : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 feat
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sum of a 256-column feature table. -/
def agg256 (feat : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256 feat
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ## The reference's three neighbour sums are the same function -/

/-- Layer 1 of the reference: the neighbour sum of the input table. -/
theorem agg128_v13 (x0 : (⟨S50000x128, .f32⟩ : BufTy).Contents (Elt F)) (x1 : (⟨S2x800000, .i32⟩ : BufTy).Contents (Elt F)) :
    agg128 x0 (Cert.ReferenceIdeal.Read.val_main_v1 x1) (Cert.ReferenceIdeal.Read.val_main_v3 x1)
      = Cert.ReferenceIdeal.Read.val_main_v13 x0 x1 := by
  unfold agg128 Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_c Cert.ReferenceIdeal.Read.val_main_c_0
    Cert.ReferenceIdeal.Read.val_main_cst
  rfl

/-- Layer 2 of the reference: the neighbour sum of layer 1's output table (left folded). -/
theorem agg256_v34 (x0 : (⟨S50000x128, .f32⟩ : BufTy).Contents (Elt F)) (x1 : (⟨S2x800000, .i32⟩ : BufTy).Contents (Elt F)) (x2 : (⟨S128x128, .f32⟩ : BufTy).Contents (Elt F))
    (x3 : (⟨S128, .f32⟩ : BufTy).Contents (Elt F)) (x4 : (⟨S128x256, .f32⟩ : BufTy).Contents (Elt F)) (x5 : (⟨S256, .f32⟩ : BufTy).Contents (Elt F)) :
    agg256 (Cert.ReferenceIdeal.Read.val_main_v24 x0 x1 x2 x3 x4 x5) (Cert.ReferenceIdeal.Read.val_main_v1 x1) (Cert.ReferenceIdeal.Read.val_main_v3 x1)
      = Cert.ReferenceIdeal.Read.val_main_v34 x0 x1 x2 x3 x4 x5 := by
  unfold agg256 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_c_1 Cert.ReferenceIdeal.Read.val_main_c_2 Cert.ReferenceIdeal.Read.val_main_cst_3
  rfl

/-- Layer 3 of the reference: the neighbour sum of layer 2's output table (left folded). -/
theorem agg128_v55 (x0 : (⟨S50000x128, .f32⟩ : BufTy).Contents (Elt F)) (x1 : (⟨S2x800000, .i32⟩ : BufTy).Contents (Elt F)) (x2 : (⟨S128x128, .f32⟩ : BufTy).Contents (Elt F))
    (x3 : (⟨S128, .f32⟩ : BufTy).Contents (Elt F)) (x4 : (⟨S128x256, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) :
    agg128 (Cert.ReferenceIdeal.Read.val_main_v45 x0 x1 x2 x3 x4 x5 x6 x7 x8 x9) (Cert.ReferenceIdeal.Read.val_main_v1 x1) (Cert.ReferenceIdeal.Read.val_main_v3 x1)
      = Cert.ReferenceIdeal.Read.val_main_v55 x0 x1 x2 x3 x4 x5 x6 x7 x8 x9 := by
  unfold agg128 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_c_4 Cert.ReferenceIdeal.Read.val_main_c_5 Cert.ReferenceIdeal.Read.val_main_cst_6
  rfl

/-! ## Stretch 0: the edge lists, layer 1's neighbour sum, layer 1's two bias rows -/

/-- The sources: row 0 of the edge table, flattened. -/
theorem s0_v1 : StableHlo.after hostOps0 W (Proc.devRef .tc main_v1) = Cert.ReferenceIdeal.Read.val_main_v1 (W (Proc.devRef .tc main_arg1)) := by
  after_results_simp <;> rfl

/-- The destinations: row 1 of the edge table, flattened. -/
theorem s0_v3 : StableHlo.after hostOps0 W (Proc.devRef .tc main_v3) = Cert.ReferenceIdeal.Read.val_main_v3 (W (Proc.devRef .tc main_arg1)) := by
  after_results_simp <;> rfl

/-- Layer 1's neighbour sum, of the input table. -/
theorem s0_v13 : StableHlo.after hostOps0 W (Proc.devRef .tc main_v13)
    = agg128 (W (Proc.devRef .tc main_arg0)) (Cert.ReferenceIdeal.Read.val_main_v1 (W (Proc.devRef .tc main_arg1))) (Cert.ReferenceIdeal.Read.val_main_v3 (W (Proc.devRef .tc main_arg1))) := by
  after_results_simp <;> rfl

/-- Layer 1's first bias, as a row. -/
theorem s0_v14 : StableHlo.after hostOps0 W (Proc.devRef .tc main_v14) = shapeCast _ (W (Proc.devRef .tc main_arg3)) shapeCasts_S128_S1x128 := by
  after_results_simp <;> rfl

/-- Layer 1's second bias, as a row. -/
theorem s0_v15 : StableHlo.after hostOps0 W (Proc.devRef .tc main_v15) = shapeCast _ (W (Proc.devRef .tc main_arg5)) shapeCasts_S256_S1x256 := by
  after_results_simp <;> rfl

/-! ## Stretch 1: layer 2's neighbour sum and two bias rows -/

/-- Layer 2's neighbour sum, of whatever table, sources and destinations the buffers hold. -/
theorem s1_v26 : StableHlo.after hostOps1 W (Proc.devRef .tc main_v26)
    = agg256 (W (Proc.devRef .tc main_v16)) (W (Proc.devRef .tc main_v1)) (W (Proc.devRef .tc main_v3)) := by
  after_results_simp <;> rfl

/-- Layer 2's first bias, as a row. -/
theorem s1_v27 : StableHlo.after hostOps1 W (Proc.devRef .tc main_v27) = shapeCast _ (W (Proc.devRef .tc main_arg7)) shapeCasts_S256_S1x256 := by
  after_results_simp <;> rfl

/-- Layer 2's second bias, as a row. -/
theorem s1_v28 : StableHlo.after hostOps1 W (Proc.devRef .tc main_v28) = shapeCast _ (W (Proc.devRef .tc main_arg9)) shapeCasts_S128_S1x128 := by
  after_results_simp <;> rfl

/-! ## Stretch 2: layer 3's neighbour sum and two bias rows -/

/-- Layer 3's neighbour sum, of whatever table, sources and destinations the buffers hold. -/
theorem s2_v39 : StableHlo.after hostOps2 W (Proc.devRef .tc main_v39)
    = agg128 (W (Proc.devRef .tc main_v29)) (W (Proc.devRef .tc main_v1)) (W (Proc.devRef .tc main_v3)) := by
  after_results_simp <;> rfl

/-- Layer 3's first bias, as a row. -/
theorem s2_v40 : StableHlo.after hostOps2 W (Proc.devRef .tc main_v40) = shapeCast _ (W (Proc.devRef .tc main_arg11)) shapeCasts_S128_S1x128 := by
  after_results_simp <;> rfl

/-- Layer 3's second bias, as a row. -/
theorem s2_v41 : StableHlo.after hostOps2 W (Proc.devRef .tc main_v41) = shapeCast _ (W (Proc.devRef .tc main_arg13)) shapeCasts_S128_S1x128 := by
  after_results_simp <;> rfl

/-! ## What the stretches do not write

A stretch writes its operations' result buffers only: at any other buffer the valuation is unchanged. -/

/-! ### Stretch 0 -/

theorem s0_keep_arg0 : StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg2 : StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg4 : StableHlo.after hostOps0 W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg6 : StableHlo.after hostOps0 W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg7 : StableHlo.after hostOps0 W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg8 : StableHlo.after hostOps0 W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg9 : StableHlo.after hostOps0 W (Proc.devRef .tc main_arg9) = W (Proc.devRef .tc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg10 : StableHlo.after hostOps0 W (Proc.devRef .tc main_arg10) = W (Proc.devRef .tc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg11 : StableHlo.after hostOps0 W (Proc.devRef .tc main_arg11) = W (Proc.devRef .tc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg12 : StableHlo.after hostOps0 W (Proc.devRef .tc main_arg12) = W (Proc.devRef .tc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s0_keep_arg13 : StableHlo.after hostOps0 W (Proc.devRef .tc main_arg13) = W (Proc.devRef .tc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ### Stretch 1 -/

theorem s1_keep_v1 : StableHlo.after hostOps1 W (Proc.devRef .tc main_v1) = W (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_v3 : StableHlo.after hostOps1 W (Proc.devRef .tc main_v3) = W (Proc.devRef .tc main_v3) :=
  StableHlo.after_of_forall_not_mem (b := Proc.devRef .tc main_v3) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_v16 : StableHlo.after hostOps1 W (Proc.devRef .tc main_v16) = W (Proc.devRef .tc main_v16) :=
  StableHlo.after_of_forall_not_mem (b := Proc.devRef .tc main_v16) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg6 : StableHlo.after hostOps1 W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg8 : StableHlo.after hostOps1 W (Proc.devRef .tc main_arg8) = W (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg10 : StableHlo.after hostOps1 W (Proc.devRef .tc main_arg10) = W (Proc.devRef .tc main_arg10) :=
  StableHlo.after_of_forall_not_mem (b := Proc.devRef .tc main_arg10) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg11 : StableHlo.after hostOps1 W (Proc.devRef .tc main_arg11) = W (Proc.devRef .tc main_arg11) :=
  StableHlo.after_of_forall_not_mem (b := Proc.devRef .tc main_arg11) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg12 : StableHlo.after hostOps1 W (Proc.devRef .tc main_arg12) = W (Proc.devRef .tc main_arg12) :=
  StableHlo.after_of_forall_not_mem (b := Proc.devRef .tc main_arg12) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s1_keep_arg13 : StableHlo.after hostOps1 W (Proc.devRef .tc main_arg13) = W (Proc.devRef .tc main_arg13) :=
  StableHlo.after_of_forall_not_mem (b := Proc.devRef .tc main_arg13) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ### Stretch 2 -/

theorem s2_keep_v29 : StableHlo.after hostOps2 W (Proc.devRef .tc main_v29) = W (Proc.devRef .tc main_v29) :=
  StableHlo.after_of_forall_not_mem (b := Proc.devRef .tc main_v29) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s2_keep_arg10 : StableHlo.after hostOps2 W (Proc.devRef .tc main_arg10) = W (Proc.devRef .tc main_arg10) :=
  StableHlo.after_of_forall_not_mem (b := Proc.devRef .tc main_arg10) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem s2_keep_arg12 : StableHlo.after hostOps2 W (Proc.devRef .tc main_arg12) = W (Proc.devRef .tc main_arg12) :=
  StableHlo.after_of_forall_not_mem (b := Proc.devRef .tc main_arg12) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.HostRead
-- ==== Proof.Chain.lean ====
/-
  The walk through @main's boundaries. Between the launch and the return the program alternates a stretch of host
  operations with a region; at each boundary every buffer the rest of the program reads holds a stage of the
  reference, as a function of the launch arrays. A stretch computes the next neighbour sum and bias rows from what
  the previous boundary holds and keeps the rest; a region writes its one output table — the next layer's value,
  given the region's fact — and keeps every other buffer. Walking the six boundaries in order, the returned buffer
  holds the reference's result.
-/
import proofs.«181978_j11665131176543_1_alg».proof.Proof.Gen.KernelIdeal.Frame
import proofs.«181978_j11665131176543_1_alg».proof.Proof.Gen.ReferenceIdeal.Read
import proofs.«181978_j11665131176543_1_alg».proof.Proof.HostRead

set_option maxRecDepth 16384

noncomputable section

namespace Cert.KernelIdeal.Chain

open Cert.KernelIdeal Cert.KernelIdeal.Gen Cert.KernelIdeal.HostRead Idealize.ShloMosaic Idealize.ShloMosaic.TcCoe Idealize.SL.Sem

variable (m : (ℓ : Loc nD τ sig) → Buf (Elt Ideal) ℓ) (ρ : Dev nD → PrngReg)

/-! ## Boundary 1: after the first stretch, from the launch arrays -/

/-- Layer 1's neighbour sum. -/
theorem W1_v13 (c : Dev nD) : W1 m ρ c (Proc.devRef .tc main_v13) = Cert.ReferenceIdeal.Read.val_main_v13 (m ((c : Thread nD τ).loc main_arg0)) (m ((c : Thread nD τ).loc main_arg1)) :=
  (s0_v13 (W0 m ρ c)).trans (agg128_v13 _ _)
/-- The sources. -/
theorem W1_v1 (c : Dev nD) : W1 m ρ c (Proc.devRef .tc main_v1) = Cert.ReferenceIdeal.Read.val_main_v1 (m ((c : Thread nD τ).loc main_arg1)) := s0_v1 (W0 m ρ c)
/-- The destinations. -/
theorem W1_v3 (c : Dev nD) : W1 m ρ c (Proc.devRef .tc main_v3) = Cert.ReferenceIdeal.Read.val_main_v3 (m ((c : Thread nD τ).loc main_arg1)) := s0_v3 (W0 m ρ c)
/-- Layer 1's bias rows. -/
theorem W1_v14 (c : Dev nD) : W1 m ρ c (Proc.devRef .tc main_v14) = shapeCast S1x128 (m ((c : Thread nD τ).loc main_arg3)) shapeCasts_S128_S1x128 := s0_v14 (W0 m ρ c)
theorem W1_v15 (c : Dev nD) : W1 m ρ c (Proc.devRef .tc main_v15) = shapeCast S1x256 (m ((c : Thread nD τ).loc main_arg5)) shapeCasts_S256_S1x256 := s0_v15 (W0 m ρ c)
/-- The arguments the stretch does not write. -/
theorem W1_arg0 (c : Dev nD) : W1 m ρ c (Proc.devRef .tc main_arg0) = m ((c : Thread nD τ).loc main_arg0) := s0_keep_arg0 (W0 m ρ c)
theorem W1_arg2 (c : Dev nD) : W1 m ρ c (Proc.devRef .tc main_arg2) = m ((c : Thread nD τ).loc main_arg2) := s0_keep_arg2 (W0 m ρ c)
theorem W1_arg4 (c : Dev nD) : W1 m ρ c (Proc.devRef .tc main_arg4) = m ((c : Thread nD τ).loc main_arg4) := s0_keep_arg4 (W0 m ρ c)
theorem W1_arg6 (c : Dev nD) : W1 m ρ c (Proc.devRef .tc main_arg6) = m ((c : Thread nD τ).loc main_arg6) := s0_keep_arg6 (W0 m ρ c)
theorem W1_arg7 (c : Dev nD) : W1 m ρ c (Proc.devRef .tc main_arg7) = m ((c : Thread nD τ).loc main_arg7) := s0_keep_arg7 (W0 m ρ c)
theorem W1_arg8 (c : Dev nD) : W1 m ρ c (Proc.devRef .tc main_arg8) = m ((c : Thread nD τ).loc main_arg8) := s0_keep_arg8 (W0 m ρ c)
theorem W1_arg9 (c : Dev nD) : W1 m ρ c (Proc.devRef .tc main_arg9) = m ((c : Thread nD τ).loc main_arg9) := s0_keep_arg9 (W0 m ρ c)
theorem W1_arg10 (c : Dev nD) : W1 m ρ c (Proc.devRef .tc main_arg10) = m ((c : Thread nD τ).loc main_arg10) := s0_keep_arg10 (W0 m ρ c)
theorem W1_arg11 (c : Dev nD) : W1 m ρ c (Proc.devRef .tc main_arg11) = m ((c : Thread nD τ).loc main_arg11) := s0_keep_arg11 (W0 m ρ c)
theorem W1_arg12 (c : Dev nD) : W1 m ρ c (Proc.devRef .tc main_arg12) = m ((c : Thread nD τ).loc main_arg12) := s0_keep_arg12 (W0 m ρ c)
theorem W1_arg13 (c : Dev nD) : W1 m ρ c (Proc.devRef .tc main_arg13) = m ((c : Thread nD τ).loc main_arg13) := s0_keep_arg13 (W0 m ρ c)

/- Region 0's fact: from the neighbour sum, the table, and layer 1's weights and bias rows, its output array
    ends at layer 1's value. -/
variable (R0 : ∀ (V : (c : Dev nD) → (b : Ref sig .tc) → Buf (Elt Ideal) ((c : Thread nD τ).loc b)) (c : Dev nD) (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)),
    V c main_v13 = Cert.ReferenceIdeal.Read.val_main_v13 x0 x1 → V c main_arg0 = x0 → V c main_arg2 = x2 →
    V c main_v14 = shapeCast S1x128 x3 shapeCasts_S128_S1x128 → V c main_arg4 = x4 →
    V c main_v15 = shapeCast S1x256 x5 shapeCasts_S256_S1x256 →
    (dat0 V c).arrAt 6 cfg0.N = Cert.ReferenceIdeal.Read.val_main_v24 x0 x1 x2 x3 x4 x5)

/-! ## Boundary 2: after region 0 -/

include R0 in
/-- Layer 1's value, in region 0's output array. -/
theorem W2_v16 (c : Dev nD) : W2 m ρ c (Proc.devRef .tc main_v16) = Cert.ReferenceIdeal.Read.val_main_v24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans (R0 (V1 m ρ) c _ _ _ _ _ _ (W1_v13 m ρ c) (W1_arg0 m ρ c) (W1_arg2 m ρ c) (W1_v14 m ρ c) (W1_arg4 m ρ c) (W1_v15 m ρ c))
/-- What region 0 does not write: the index vectors and the later layers' arguments. -/
theorem W2_v1 (c : Dev nD) : W2 m ρ c (Proc.devRef .tc main_v1) = Cert.ReferenceIdeal.Read.val_main_v1 (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (m ((c : Thread nD τ).loc main_arg1)) :=
  (W2_of_ne m ρ c main_v3 (by decide)).trans (W1_v3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)

/-! ## Boundary 3: after the second stretch -/

include R0 in
/-- Layer 2's neighbour sum, of layer 1's value. -/
theorem W3_v26 (c : Dev nD) : W3 m ρ c (Proc.devRef .tc main_v26) = Cert.ReferenceIdeal.Read.val_main_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (s1_v26 (W2 m ρ c)).trans ?_
  rw [W2_v16 m ρ R0 c, W2_v1 m ρ c, W2_v3 m ρ c]
  exact agg256_v34 _ _ _ _ _ _
include R0 in
/-- Layer 1's value is kept. -/
theorem W3_v16 (c : Dev nD) : W3 m ρ c (Proc.devRef .tc main_v16) = Cert.ReferenceIdeal.Read.val_main_v24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (s1_keep_v16 (W2 m ρ c)).trans (W2_v16 m ρ R0 c)
/-- Layer 2's bias rows. -/
theorem W3_v27 (c : Dev nD) : W3 m ρ c (Proc.devRef .tc main_v27) = shapeCast S1x256 (m ((c : Thread nD τ).loc main_arg7)) shapeCasts_S256_S1x256 :=
  (s1_v27 (W2 m ρ c)).trans (by rw [W2_arg7 m ρ c])
theorem W3_v28 (c : Dev nD) : W3 m ρ c (Proc.devRef .tc main_v28) = shapeCast S1x128 (m ((c : Thread nD τ).loc main_arg9)) shapeCasts_S128_S1x128 :=
  (s1_v28 (W2 m ρ c)).trans (by rw [W2_arg9 m ρ c])
/-- What the stretch does not write. -/
theorem W3_v1 (c : Dev nD) : W3 m ρ c (Proc.devRef .tc main_v1) = Cert.ReferenceIdeal.Read.val_main_v1 (m ((c : Thread nD τ).loc main_arg1)) :=
  (s1_keep_v1 (W2 m ρ c)).trans (W2_v1 m ρ c)
theorem W3_v3 (c : Dev nD) : W3 m ρ c (Proc.devRef .tc main_v3) = Cert.ReferenceIdeal.Read.val_main_v3 (m ((c : Thread nD τ).loc main_arg1)) :=
  (s1_keep_v3 (W2 m ρ c)).trans (W2_v3 m ρ c)
theorem W3_arg6 (c : Dev nD) : W3 m ρ c (Proc.devRef .tc main_arg6) = m ((c : Thread nD τ).loc main_arg6) :=
  (s1_keep_arg6 (W2 m ρ c)).trans (W2_arg6 m ρ c)
theorem W3_arg8 (c : Dev nD) : W3 m ρ c (Proc.devRef .tc main_arg8) = m ((c : Thread nD τ).loc main_arg8) :=
  (s1_keep_arg8 (W2 m ρ c)).trans (W2_arg8 m ρ c)
theorem W3_arg10 (c : Dev nD) : W3 m ρ c (Proc.devRef .tc main_arg10) = m ((c : Thread nD τ).loc main_arg10) :=
  (s1_keep_arg10 (W2 m ρ c)).trans (W2_arg10 m ρ c)
theorem W3_arg11 (c : Dev nD) : W3 m ρ c (Proc.devRef .tc main_arg11) = m ((c : Thread nD τ).loc main_arg11) :=
  (s1_keep_arg11 (W2 m ρ c)).trans (W2_arg11 m ρ c)
theorem W3_arg12 (c : Dev nD) : W3 m ρ c (Proc.devRef .tc main_arg12) = m ((c : Thread nD τ).loc main_arg12) :=
  (s1_keep_arg12 (W2 m ρ c)).trans (W2_arg12 m ρ c)
theorem W3_arg13 (c : Dev nD) : W3 m ρ c (Proc.devRef .tc main_arg13) = m ((c : Thread nD τ).loc main_arg13) :=
  (s1_keep_arg13 (W2 m ρ c)).trans (W2_arg13 m ρ c)

/- Region 1's fact: from layer 2's neighbour sum, layer 1's value, and layer 2's weights and bias rows, its output
   array ends at layer 2's value. -/
variable (R1 : ∀ (V : (c : Dev nD) → (b : Ref sig .tc) → Buf (Elt Ideal) ((c : Thread nD τ).loc b)) (c : Dev nD) (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)),
    V c main_v26 = Cert.ReferenceIdeal.Read.val_main_v34 x0 x1 x2 x3 x4 x5 → V c main_v16 = Cert.ReferenceIdeal.Read.val_main_v24 x0 x1 x2 x3 x4 x5 → V c main_arg6 = x6 →
    V c main_v27 = shapeCast S1x256 x7 shapeCasts_S256_S1x256 → V c main_arg8 = x8 →
    V c main_v28 = shapeCast S1x128 x9 shapeCasts_S128_S1x128 →
    (dat1 V c).arrAt 6 cfg1.N = Cert.ReferenceIdeal.Read.val_main_v45 x0 x1 x2 x3 x4 x5 x6 x7 x8 x9)

/-! ## Boundary 4: after region 1 -/

include R0 R1 in
/-- Layer 2's value, in region 1's output array. -/
theorem W4_v29 (c : Dev nD) : W4 m ρ c (Proc.devRef .tc main_v29) = Cert.ReferenceIdeal.Read.val_main_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans (R1 (V3 m ρ) c _ _ _ _ _ _ _ _ _ _ (W3_v26 m ρ R0 c) (W3_v16 m ρ R0 c) (W3_arg6 m ρ c) (W3_v27 m ρ c) (W3_arg8 m ρ c) (W3_v28 m ρ c))
/-- What region 1 does not write. -/
theorem W4_v1 (c : Dev nD) : W4 m ρ c (Proc.devRef .tc main_v1) = Cert.ReferenceIdeal.Read.val_main_v1 (m ((c : Thread nD τ).loc main_arg1)) :=
  (W4_of_ne m ρ c main_v1 (by decide)).trans (W3_v1 m ρ c)
theorem W4_v3 (c : Dev nD) : W4 m ρ c (Proc.devRef .tc main_v3) = Cert.ReferenceIdeal.Read.val_main_v3 (m ((c : Thread nD τ).loc main_arg1)) :=
  (W4_of_ne m ρ c main_v3 (by decide)).trans (W3_v3 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg13 (c : Dev nD) : W4 m ρ c (Proc.devRef .tc main_arg13) = m ((c : Thread nD τ).loc main_arg13) :=
  (W4_of_ne m ρ c main_arg13 (by decide)).trans (W3_arg13 m ρ c)

/-! ## Boundary 5: after the third stretch -/

include R0 R1 in
/-- Layer 3's neighbour sum, of layer 2's value. -/
theorem W5_v39 (c : Dev nD) : W5 m ρ c (Proc.devRef .tc main_v39) = Cert.ReferenceIdeal.Read.val_main_v55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (s2_v39 (W4 m ρ c)).trans ?_
  rw [W4_v29 m ρ R0 R1 c, W4_v1 m ρ c, W4_v3 m ρ c]
  exact agg128_v55 _ _ _ _ _ _ _ _ _ _
include R0 R1 in
/-- Layer 2's value is kept. -/
theorem W5_v29 (c : Dev nD) : W5 m ρ c (Proc.devRef .tc main_v29) = Cert.ReferenceIdeal.Read.val_main_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (s2_keep_v29 (W4 m ρ c)).trans (W4_v29 m ρ R0 R1 c)
/-- Layer 3's bias rows. -/
theorem W5_v40 (c : Dev nD) : W5 m ρ c (Proc.devRef .tc main_v40) = shapeCast S1x128 (m ((c : Thread nD τ).loc main_arg11)) shapeCasts_S128_S1x128 :=
  (s2_v40 (W4 m ρ c)).trans (by rw [W4_arg11 m ρ c])
theorem W5_v41 (c : Dev nD) : W5 m ρ c (Proc.devRef .tc main_v41) = shapeCast S1x128 (m ((c : Thread nD τ).loc main_arg13)) shapeCasts_S128_S1x128 :=
  (s2_v41 (W4 m ρ c)).trans (by rw [W4_arg13 m ρ c])
/-- Layer 3's weights are kept. -/
theorem W5_arg10 (c : Dev nD) : W5 m ρ c (Proc.devRef .tc main_arg10) = m ((c : Thread nD τ).loc main_arg10) :=
  (s2_keep_arg10 (W4 m ρ c)).trans (W4_arg10 m ρ c)
theorem W5_arg12 (c : Dev nD) : W5 m ρ c (Proc.devRef .tc main_arg12) = m ((c : Thread nD τ).loc main_arg12) :=
  (s2_keep_arg12 (W4 m ρ c)).trans (W4_arg12 m ρ c)

/- Region 2's fact: from layer 3's neighbour sum, layer 2's value, and layer 3's weights and bias rows, its output
   array ends at the reference's result. -/
variable (R2 : ∀ (V : (c : Dev nD) → (b : Ref sig .tc) → Buf (Elt Ideal) ((c : Thread nD τ).loc b)) (c : Dev nD) (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)),
    V c main_v39 = Cert.ReferenceIdeal.Read.val_main_v55 x0 x1 x2 x3 x4 x5 x6 x7 x8 x9 → V c main_v29 = Cert.ReferenceIdeal.Read.val_main_v45 x0 x1 x2 x3 x4 x5 x6 x7 x8 x9 → V c main_arg10 = x10 →
    V c main_v40 = shapeCast S1x128 x11 shapeCasts_S128_S1x128 → V c main_arg12 = x12 →
    V c main_v41 = shapeCast S1x128 x13 shapeCasts_S128_S1x128 →
    (dat2 V c).arrAt 6 cfg2.N = Cert.ReferenceIdeal.Read.val_main_v65 x0 x1 x2 x3 x4 x5 x6 x7 x8 x9 x10 x11 x12 x13)

/-! ## Boundary 6: the return -/

include R0 R1 R2 in
/-- The returned buffer holds the reference's result of the launch arrays. -/
theorem result_eq (c : Dev nD) : W6 m ρ c (Proc.devRef .tc main_v42) = Cert.ReferenceIdeal.Read.val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W6_arr m ρ c 6).trans (R2 (V5 m ρ) c _ _ _ _ _ _ _ _ _ _ _ _ _ _ (W5_v39 m ρ R0 R1 c) (W5_v29 m ρ R0 R1 c) (W5_arg10 m ρ c) (W5_v40 m ρ c) (W5_arg12 m ρ c) (W5_v41 m ρ c))

end Cert.KernelIdeal.Chain
-- ==== Proof.RowMLP.lean ====
/-
  One row of a two-layer perceptron over the extended reals.

  Every layer of the network, in the kernel and in the reference alike, sends a row `A` (a node's own
  features plus the sum of its neighbours') to `max(A·Wa + ba, 0)` and that hidden row `H` to `H·Wb + bb`
  (followed, in the first two layers, by one more `max(·, 0)`).  A row of the result depends on the SAME row
  of the input and on nothing else: that is why the kernel may compute ten tiles of 5000 rows one after the
  other where the reference computes all 50000 rows at once.  The two functions below are those two steps at
  one output column; the zero is kept as the word both programs print for it, so it is never evaluated.
-/
import Idealize.ShloMosaic.PureOps.Ideal

noncomputable section

namespace Cert.RowMLP

open Idealize.ShloMosaic

/-- The word both programs write for the zero of a rectifier, read at the ideal values. -/
abbrev zero : EReal := Ideal.ofBits .f32 0x00000000#32

/-- Column `k` of the hidden row: `max(∑ⱼ A j · Wa j k + ba k, 0)`. -/
def hid {a b : ℕ} (A : Fin a → EReal) (Wa : Fin a → Fin b → EReal) (ba : Fin b → EReal) (k : Fin b) : EReal :=
  max (∑ j : Fin a, A j * Wa j k + ba k) zero

/-- Column `q` of the output row before any rectifier: `∑ₖ H k · Wb k q + bb q`. -/
def lin {b d : ℕ} (H : Fin b → EReal) (Wb : Fin b → Fin d → EReal) (bb : Fin d → EReal) (q : Fin d) : EReal :=
  ∑ k : Fin b, H k * Wb k q + bb q

end Cert.RowMLP

end
-- ==== Proof.RefRows.lean ====
/-
  The reference's layers read one row at a time.

  The reference computes each layer on whole tables: the neighbour sum plus the table itself, a matrix
  product, a bias row broadcast over all rows, a rectifier, a second product, bias and (in the first two
  layers) rectifier.  Read at row `r` and one column, each of these is an operation on row `r` alone: a
  product's entry is the sum over the contracted index of row `r` of the left table against a column of
  the right one, a broadcast bias is the bias at the column, the rectifier and the sums act entry by entry.
  So the hidden table at `(r, k)` is `RowMLP.hid` of row `r` of (neighbour sum + features), and the layer's
  output at `(r, q)` is `RowMLP.lin` of row `r` of the hidden table (rectified or not).  The neighbour sums
  (a scatter-add of gathered rows) are never opened: they enter as the tables they are.
-/
import proofs.«181978_j11665131176543_1_alg».proof.Proof.Gen.ReferenceIdeal.Read
import proofs.«181978_j11665131176543_1_alg».proof.Proof.RowMLP
import Idealize.ShloMosaic.Lib.ValueIdx

noncomputable section

namespace Cert.RefRows

open Cert.ReferenceIdeal Idealize.ShloMosaic Idealize.ShloMosaic.ValueIdx Cert.RowMLP

/-! ## Layer 1: 128 features, 128 hidden, 256 out, rectified -/

/-- Layer 1's hidden table at `(r, k)`: the hidden row of row `r` of the table (neighbour sum of the input features + the input features). -/
theorem hidden1_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (r : Fin 50000) (k : Fin 128) :
    Read.val_main_v19 (F := Ideal) x0 x1 x2 x3 (ix2 r k)
      = hid (fun j : Fin 128 => Read.val_main_v14 (F := Ideal) x0 x1 (ix2 r j))
          (fun j k => x2 (ix2 j k)) (fun k => x3 (ix1 k)) k := by
  rw [Read.val_main_v19_apply, Read.val_main_v18_apply, Read.val_main_v15_apply, Read.val_main_v17_apply, Read.val_main_v16_apply,
    Read.val_main_call0_v0_apply, Read.val_main_call0_cst_apply]
  generalize Read.val_main_v14 (F := Ideal) x0 x1 = Y
  have el : ∀ j : Fin 128, Read.lidx_main_v15 (ix2 r k) j = ix2 r j := fun j => funext fun a => by
    match a with | ⟨0, _⟩ => rfl | ⟨1, _⟩ => rfl
  have er : ∀ j : Fin 128, Read.ridx_main_v15 (ix2 r k) j = ix2 j k := fun j => funext fun a => by
    match a with | ⟨0, _⟩ => rfl | ⟨1, _⟩ => rfl
  have eb : Read.idx_main_v16 (Read.idx_main_v17 (ix2 r k)) = ix1 k := funext fun a => by
    match a with | ⟨0, _⟩ => rfl
  simp only [el, er, eb]
  rfl

/-- Layer 1's output at `(r, q)`: the rectified output row of row `r` of its hidden table. -/
theorem layer1_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (r : Fin 50000) (q : Fin 256) :
    Read.val_main_v24 (F := Ideal) x0 x1 x2 x3 x4 x5 (ix2 r q)
      = max (lin (fun k : Fin 128 => Read.val_main_v19 (F := Ideal) x0 x1 x2 x3 (ix2 r k)) (fun k q => x4 (ix2 k q)) (fun q => x5 (ix1 q)) q) zero := by
  rw [Read.val_main_v24_apply, Read.val_main_v23_apply, Read.val_main_v20_apply, Read.val_main_v22_apply, Read.val_main_v21_apply,
    Read.val_main_call1_v0_apply, Read.val_main_call1_cst_apply]
  generalize Read.val_main_v19 (F := Ideal) x0 x1 x2 x3 = Y
  have el : ∀ k : Fin 128, Read.lidx_main_v20 (ix2 r q) k = ix2 r k := fun k => funext fun a => by
    match a with | ⟨0, _⟩ => rfl | ⟨1, _⟩ => rfl
  have er : ∀ k : Fin 128, Read.ridx_main_v20 (ix2 r q) k = ix2 k q := fun k => funext fun a => by
    match a with | ⟨0, _⟩ => rfl | ⟨1, _⟩ => rfl
  have eb : Read.idx_main_v21 (Read.idx_main_v22 (ix2 r q)) = ix1 q := funext fun a => by
    match a with | ⟨0, _⟩ => rfl
  simp only [el, er, eb]
  rfl

/-- Layer 1's output at `(r, q)` as a function of row `r` of (neighbour sum + features) alone. -/
theorem layer1_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (r : Fin 50000) (q : Fin 256) :
    Read.val_main_v24 (F := Ideal) x0 x1 x2 x3 x4 x5 (ix2 r q)
      = max (lin (fun k : Fin 128 => hid (fun j : Fin 128 => Read.val_main_v14 (F := Ideal) x0 x1 (ix2 r j)) (fun j k => x2 (ix2 j k)) (fun k => x3 (ix1 k)) k) (fun k q => x4 (ix2 k q)) (fun q => x5 (ix1 q)) q) zero := by
  rw [layer1_at x0 x1 x2 x3 x4 x5 r q]
  have e : (fun k : Fin 128 => Read.val_main_v19 (F := Ideal) x0 x1 x2 x3 (ix2 r k))
      = fun k : Fin 128 => hid (fun j : Fin 128 => Read.val_main_v14 (F := Ideal) x0 x1 (ix2 r j)) (fun j k => x2 (ix2 j k)) (fun k => x3 (ix1 k)) k :=
    funext fun k => hidden1_at x0 x1 x2 x3 r k
  rw [e]

/-! ## Layer 2: 256 features, 256 hidden, 128 out, rectified -/

/-- Layer 2's hidden table at `(r, k)`: the hidden row of row `r` of the table (neighbour sum of layer 1's output + layer 1's output). -/
theorem hidden2_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (r : Fin 50000) (k : Fin 256) :
    Read.val_main_v40 (F := Ideal) x0 x1 x2 x3 x4 x5 x6 x7 (ix2 r k)
      = hid (fun j : Fin 256 => Read.val_main_v35 (F := Ideal) x0 x1 x2 x3 x4 x5 (ix2 r j))
          (fun j k => x6 (ix2 j k)) (fun k => x7 (ix1 k)) k := by
  rw [Read.val_main_v40_apply, Read.val_main_v39_apply, Read.val_main_v36_apply, Read.val_main_v38_apply, Read.val_main_v37_apply,
    Read.val_main_call2_v0_apply, Read.val_main_call2_cst_apply]
  generalize Read.val_main_v35 (F := Ideal) x0 x1 x2 x3 x4 x5 = Y
  have el : ∀ j : Fin 256, Read.lidx_main_v36 (ix2 r k) j = ix2 r j := fun j => funext fun a => by
    match a with | ⟨0, _⟩ => rfl | ⟨1, _⟩ => rfl
  have er : ∀ j : Fin 256, Read.ridx_main_v36 (ix2 r k) j = ix2 j k := fun j => funext fun a => by
    match a with | ⟨0, _⟩ => rfl | ⟨1, _⟩ => rfl
  have eb : Read.idx_main_v37 (Read.idx_main_v38 (ix2 r k)) = ix1 k := funext fun a => by
    match a with | ⟨0, _⟩ => rfl
  simp only [el, er, eb]
  rfl

/-- Layer 2's output at `(r, q)`: the rectified output row of row `r` of its hidden table. -/
theorem layer2_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (r : Fin 50000) (q : Fin 128) :
    Read.val_main_v45 (F := Ideal) x0 x1 x2 x3 x4 x5 x6 x7 x8 x9 (ix2 r q)
      = max (lin (fun k : Fin 256 => Read.val_main_v40 (F := Ideal) x0 x1 x2 x3 x4 x5 x6 x7 (ix2 r k)) (fun k q => x8 (ix2 k q)) (fun q => x9 (ix1 q)) q) zero := by
  rw [Read.val_main_v45_apply, Read.val_main_v44_apply, Read.val_main_v41_apply, Read.val_main_v43_apply, Read.val_main_v42_apply,
    Read.val_main_call3_v0_apply, Read.val_main_call3_cst_apply]
  generalize Read.val_main_v40 (F := Ideal) x0 x1 x2 x3 x4 x5 x6 x7 = Y
  have el : ∀ k : Fin 256, Read.lidx_main_v41 (ix2 r q) k = ix2 r k := fun k => funext fun a => by
    match a with | ⟨0, _⟩ => rfl | ⟨1, _⟩ => rfl
  have er : ∀ k : Fin 256, Read.ridx_main_v41 (ix2 r q) k = ix2 k q := fun k => funext fun a => by
    match a with | ⟨0, _⟩ => rfl | ⟨1, _⟩ => rfl
  have eb : Read.idx_main_v42 (Read.idx_main_v43 (ix2 r q)) = ix1 q := funext fun a => by
    match a with | ⟨0, _⟩ => rfl
  simp only [el, er, eb]
  rfl

/-- Layer 2's output at `(r, q)` as a function of row `r` of (neighbour sum + features) alone. -/
theorem layer2_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (r : Fin 50000) (q : Fin 128) :
    Read.val_main_v45 (F := Ideal) x0 x1 x2 x3 x4 x5 x6 x7 x8 x9 (ix2 r q)
      = max (lin (fun k : Fin 256 => hid (fun j : Fin 256 => Read.val_main_v35 (F := Ideal) x0 x1 x2 x3 x4 x5 (ix2 r j)) (fun j k => x6 (ix2 j k)) (fun k => x7 (ix1 k)) k) (fun k q => x8 (ix2 k q)) (fun q => x9 (ix1 q)) q) zero := by
  rw [layer2_at x0 x1 x2 x3 x4 x5 x6 x7 x8 x9 r q]
  have e : (fun k : Fin 256 => Read.val_main_v40 (F := Ideal) x0 x1 x2 x3 x4 x5 x6 x7 (ix2 r k))
      = fun k : Fin 256 => hid (fun j : Fin 256 => Read.val_main_v35 (F := Ideal) x0 x1 x2 x3 x4 x5 (ix2 r j)) (fun j k => x6 (ix2 j k)) (fun k => x7 (ix1 k)) k :=
    funext fun k => hidden2_at x0 x1 x2 x3 x4 x5 x6 x7 r k
  rw [e]

/-! ## Layer 3: 128 features, 128 hidden, 128 out, not rectified -/

/-- Layer 3's hidden table at `(r, k)`: the hidden row of row `r` of the table (neighbour sum of layer 2's output + layer 2's output). -/
theorem hidden3_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (r : Fin 50000) (k : Fin 128) :
    Read.val_main_v61 (F := Ideal) x0 x1 x2 x3 x4 x5 x6 x7 x8 x9 x10 x11 (ix2 r k)
      = hid (fun j : Fin 128 => Read.val_main_v56 (F := Ideal) x0 x1 x2 x3 x4 x5 x6 x7 x8 x9 (ix2 r j))
          (fun j k => x10 (ix2 j k)) (fun k => x11 (ix1 k)) k := by
  rw [Read.val_main_v61_apply, Read.val_main_v60_apply, Read.val_main_v57_apply, Read.val_main_v59_apply, Read.val_main_v58_apply,
    Read.val_main_call4_v0_apply, Read.val_main_call4_cst_apply]
  generalize Read.val_main_v56 (F := Ideal) x0 x1 x2 x3 x4 x5 x6 x7 x8 x9 = Y
  have el : ∀ j : Fin 128, Read.lidx_main_v57 (ix2 r k) j = ix2 r j := fun j => funext fun a => by
    match a with | ⟨0, _⟩ => rfl | ⟨1, _⟩ => rfl
  have er : ∀ j : Fin 128, Read.ridx_main_v57 (ix2 r k) j = ix2 j k := fun j => funext fun a => by
    match a with | ⟨0, _⟩ => rfl | ⟨1, _⟩ => rfl
  have eb : Read.idx_main_v58 (Read.idx_main_v59 (ix2 r k)) = ix1 k := funext fun a => by
    match a with | ⟨0, _⟩ => rfl
  simp only [el, er, eb]
  rfl

/-- The result at `(r, q)`: the output row of row `r` of layer 3's hidden table, no rectifier after it. -/
theorem layer3_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (r : Fin 50000) (q : Fin 128) :
    Read.val_main_v65 (F := Ideal) x0 x1 x2 x3 x4 x5 x6 x7 x8 x9 x10 x11 x12 x13 (ix2 r q)
      = lin (fun k : Fin 128 => Read.val_main_v61 (F := Ideal) x0 x1 x2 x3 x4 x5 x6 x7 x8 x9 x10 x11 (ix2 r k)) (fun k q => x12 (ix2 k q)) (fun q => x13 (ix1 q)) q := by
  rw [Read.val_main_v65_apply, Read.val_main_v62_apply, Read.val_main_v64_apply, Read.val_main_v63_apply]
  generalize Read.val_main_v61 (F := Ideal) x0 x1 x2 x3 x4 x5 x6 x7 x8 x9 x10 x11 = Y
  have el : ∀ k : Fin 128, Read.lidx_main_v62 (ix2 r q) k = ix2 r k := fun k => funext fun a => by
    match a with | ⟨0, _⟩ => rfl | ⟨1, _⟩ => rfl
  have er : ∀ k : Fin 128, Read.ridx_main_v62 (ix2 r q) k = ix2 k q := fun k => funext fun a => by
    match a with | ⟨0, _⟩ => rfl | ⟨1, _⟩ => rfl
  have eb : Read.idx_main_v63 (Read.idx_main_v64 (ix2 r q)) = ix1 q := funext fun a => by
    match a with | ⟨0, _⟩ => rfl
  simp only [el, er, eb]
  rfl

/-- The result at `(r, q)` as a function of row `r` of (neighbour sum + features) alone. -/
theorem layer3_row (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (r : Fin 50000) (q : Fin 128) :
    Read.val_main_v65 (F := Ideal) x0 x1 x2 x3 x4 x5 x6 x7 x8 x9 x10 x11 x12 x13 (ix2 r q)
      = lin (fun k : Fin 128 => hid (fun j : Fin 128 => Read.val_main_v56 (F := Ideal) x0 x1 x2 x3 x4 x5 x6 x7 x8 x9 (ix2 r j)) (fun j k => x10 (ix2 j k)) (fun k => x11 (ix1 k)) k) (fun k q => x12 (ix2 k q)) (fun q => x13 (ix1 q)) q := by
  rw [layer3_at x0 x1 x2 x3 x4 x5 x6 x7 x8 x9 x10 x11 x12 x13 r q]
  have e : (fun k : Fin 128 => Read.val_main_v61 (F := Ideal) x0 x1 x2 x3 x4 x5 x6 x7 x8 x9 x10 x11 (ix2 r k))
      = fun k : Fin 128 => hid (fun j : Fin 128 => Read.val_main_v56 (F := Ideal) x0 x1 x2 x3 x4 x5 x6 x7 x8 x9 (ix2 r j)) (fun j k => x10 (ix2 j k)) (fun k => x11 (ix1 k)) k :=
    funext fun k => hidden3_at x0 x1 x2 x3 x4 x5 x6 x7 x8 x9 x10 x11 r k
  rw [e]

end Cert.RefRows

end
-- ==== Proof.OpsAt.lean ====
import proofs.«181978_j11665131176543_1_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

/-! The kernel body's non-pointwise vector operations, read at an index at the ideal values.

A matrix product into the zero accumulator, read at row `p` and column `q`, is the sum over the
contracted coordinate `k` of the left operand at `(p, k)` times the right operand at `(k, q)`.
A one-row bias broadcast over the rows reads its one row at the column. A shape cast to the same
shape is the identity, and a vector reshaped to one row reads the vector at the column. -/

noncomputable section

namespace Cert.KernelIdeal.OpsAt

open Cert.KernelIdeal Cert.KernelIdeal.Gen Idealize.ShloMosaic Idealize.ShloMosaic.ValueIdx

/-! ## The [5000, 128] × [128, 128] product -/

/-- The left operand's index keeps the output row on its non-contracted axis 0. -/
theorem lhs_128_128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's index has the contraction coordinate on its contracted axis 1. -/
theorem lhs_128_128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's index has the contraction coordinate on its contracted axis 0. -/
theorem rhs_128_128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's index keeps the output column on its non-contracted axis 1. -/
theorem rhs_128_128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator at `(p, q)`: the sum over `k` of left `(p, k)` times right `(k, q)`. -/
theorem mm_128_128 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q) = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_128_128_0 _ _
    | ⟨1, _⟩ => exact (lhs_128_128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_128_128_0 _ _).trans hk
    | ⟨1, _⟩ => exact rhs_128_128_1 _ _)
  rw [el, er]

/-! ## The [5000, 128] × [128, 256] product -/

/-- The left operand's index keeps the output row on its non-contracted axis 0. -/
theorem lhs_128_256_0 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- The left operand's index has the contraction coordinate on its contracted axis 1. -/
theorem lhs_128_256_1 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
/-- The right operand's index has the contraction coordinate on its contracted axis 0. -/
theorem rhs_128_256_0 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
/-- The right operand's index keeps the output column on its non-contracted axis 1. -/
theorem rhs_128_256_1 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product into the zero accumulator at `(p, q)`: the sum over `k` of left `(p, k)` times right `(k, q)`. -/
theorem mm_128_256 (l : FVec Ideal S5000x128 .bf16) (r : FVec Ideal S128x256 .bf16) (p : Fin 5000) (q : Fin 256) :
    matmul dot_S5000x128_S128x256_S5000x256_1_0_0_1_n_n none l r (constant (F := Ideal) S5000x256 .f32 0x00000000#32) (ix2 p q) = ∑ k : Fin 128, l (ix2 p k) * r (ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lhs_128_256_0 _ _
    | ⟨1, _⟩ => exact (lhs_128_256_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (rhs_128_256_0 _ _).trans hk
    | ⟨1, _⟩ => exact rhs_128_256_1 _ _)
  rw [el, er]

/-! ## The [5000, 256] × [256, 256] product -/

/-- The left operand's index keeps the output row on its non-contracted axis 0. -/
theorem lhs_256_256_0 (i : S5000x256.Idx) (c : dot_S5000x256_S256x256_S5000x256_1_0_0_1_n_n.contr.Idx) :
    (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- The left operand's index has the contraction coordinate on its contracted axis 1. -/
theorem lhs_256_256_1 (i : S5000x256.Idx) (c : dot_S5000x256_S256x256_S5000x256_1_0_0_1_n_n.contr.Idx) :
    (dot_S5000x256_S256x256_S5000x256_1_0_0_1_n_n.lhsIdx i c 1).val = (c ⟨0, by decide⟩).val :=
  dot_S5000x256_S256x256_S5000x256_1_0_0_1_n_n.lhsIdx_val_of_single rfl i c
/-- The right operand's index has the contraction coordinate on its contracted axis 0. -/
theorem rhs_256_256_0 (i : S5000x256.Idx) (c : dot_S5000x256_S256x256_S5000x256_1_0_0_1_n_n.contr.Idx) :
    (dot_S5000x256_S256x256_S5000x256_1_0_0_1_n_n.rhsIdx i c 0).val = (c ⟨0, by decide⟩).val :=
  dot_S5000x256_S256x256_S5000x256_1_0_0_1_n_n.rhsIdx_val_of_single rfl i c
/-- The right operand's index keeps the output column on its non-contracted axis 1. -/
theorem rhs_256_256_1 (i : S5000x256.Idx) (c : dot_S5000x256_S256x256_S5000x256_1_0_0_1_n_n.contr.Idx) :
    (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product into the zero accumulator at `(p, q)`: the sum over `k` of left `(p, k)` times right `(k, q)`. -/
theorem mm_256_256 (l : FVec Ideal S5000x256 .bf16) (r : FVec Ideal S256x256 .bf16) (p : Fin 5000) (q : Fin 256) :
    matmul dot_S5000x256_S256x256_S5000x256_1_0_0_1_n_n none l r (constant (F := Ideal) S5000x256 .f32 0x00000000#32) (ix2 p q) = ∑ k : Fin 256, l (ix2 p k) * r (ix2 k q) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs_256_256_0 _ _
    | ⟨1, _⟩ => exact (lhs_256_256_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs_256_256_0 _ _).trans hk
    | ⟨1, _⟩ => exact rhs_256_256_1 _ _)
  rw [el, er]

/-! ## The [5000, 256] × [256, 128] product -/

/-- The left operand's index keeps the output row on its non-contracted axis 0. -/
theorem lhs_256_128_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's index has the contraction coordinate on its contracted axis 1. -/
theorem lhs_256_128_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
/-- The right operand's index has the contraction coordinate on its contracted axis 0. -/
theorem rhs_256_128_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
/-- The right operand's index keeps the output column on its non-contracted axis 1. -/
theorem rhs_256_128_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into the zero accumulator at `(p, q)`: the sum over `k` of left `(p, k)` times right `(k, q)`. -/
theorem mm_256_128 (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q) = ∑ k : Fin 256, l (ix2 p k) * r (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_256_128_0 _ _
    | ⟨1, _⟩ => exact (lhs_256_128_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_256_128_0 _ _).trans hk
    | ⟨1, _⟩ => exact rhs_256_128_1 _ _)
  rw [el, er]

/-! ## The biases, the identity casts and the one-row reshapes -/

/-- A [1, 128] bias broadcast over the 5000 rows reads, at `(p, q)`, its one row at `q`. -/
theorem bias_128 (v : FVec Ideal S1x128 .f32) (p : Fin 5000) (q : Fin 128) :
    broadcastTo S5000x128 (shapeCast S1x128 v shapeCasts_S1x128_S1x128) broadcasts_S1x128_S5000x128 (ix2 p q) = v (ix2 (0 : Fin 1) q) := by
  rw [shapeCast_self]
  exact broadcastTo_1b_ab_apply v broadcasts_S1x128_S5000x128 p q

/-- A [1, 256] bias broadcast over the 5000 rows reads, at `(p, q)`, its one row at `q`. -/
theorem bias_256 (v : FVec Ideal S1x256 .f32) (p : Fin 5000) (q : Fin 256) :
    broadcastTo S5000x256 (shapeCast S1x256 v shapeCasts_S1x256_S1x256) broadcasts_S1x256_S5000x256 (ix2 p q) = v (ix2 (0 : Fin 1) q) := by
  rw [shapeCast_self]
  exact broadcastTo_1b_ab_apply v broadcasts_S1x256_S5000x256 p q

/-- A shape cast of a [5000, 128] array to its own shape is the array. -/
theorem cast_5000x128 (v : FVec Ideal S5000x128 .f32) : shapeCast S5000x128 v shapeCasts_S5000x128_S5000x128 = v :=
  shapeCast_self v shapeCasts_S5000x128_S5000x128

/-- A shape cast of a [5000, 256] array to its own shape is the array. -/
theorem cast_5000x256 (v : FVec Ideal S5000x256 .f32) : shapeCast S5000x256 v shapeCasts_S5000x256_S5000x256 = v :=
  shapeCast_self v shapeCasts_S5000x256_S5000x256

/-- A [128] vector reshaped to one row [1, 128] reads, at `(0, q)`, the vector at `q`. -/
theorem row_128 (x : FVec Ideal S128 .f32) (q : Fin 128) : shapeCast S1x128 x shapeCasts_S128_S1x128 (ix2 (0 : Fin 1) q) = x (ix1 q) :=
  shapeCast_a_1a_apply x shapeCasts_S128_S1x128 (0 : Fin 1) q

/-- A [256] vector reshaped to one row [1, 256] reads, at `(0, q)`, the vector at `q`. -/
theorem row_256 (x : FVec Ideal S256 .f32) (q : Fin 256) : shapeCast S1x256 x shapeCasts_S256_S1x256 (ix2 (0 : Fin 1) q) = x (ix1 q) :=
  shapeCast_a_1a_apply x shapeCasts_S256_S1x256 (0 : Fin 1) q

end Cert.KernelIdeal.OpsAt

end
-- ==== Proof.Region0.lean ====
/-
  Region 0 (layer 1: 128 features, 128 hidden, 256 out, rectified): what the pipeline leaves in its output array.

  The region runs the layer's perceptron on ten tiles of 5000 rows.  At grid point `t` the two row-tiled
  inputs (the neighbour sum and the features) are staged at rows `5000 t … 5000 t + 4999`, the two weight
  matrices and the two bias rows whole, and the body's one store writes the tile's 5000 × 256 outputs, which
  are flushed to the same rows of the output array.  A row of the perceptron's output depends on the same
  row of its input only, so the tile written at `t` is rows `5000 t …` of ONE whole-table function — the
  reference's own table for this layer — and the ten tiles cover the array.
-/
import proofs.«181978_j11665131176543_1_alg».proof.Proof.Gen.KernelIdeal.Frame
import proofs.«181978_j11665131176543_1_alg».proof.Proof.Gen.ReferenceIdeal.Read
import proofs.«181978_j11665131176543_1_alg».proof.Proof.RowMLP
import proofs.«181978_j11665131176543_1_alg».proof.Proof.RefRows
import proofs.«181978_j11665131176543_1_alg».proof.Proof.OpsAt
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowMLP

/-! ## The body's arithmetic at one entry -/

/-- The stored tile at `(p, q)`: the rectified output row of the hidden row of row `p` of the two row-tiled blocks' sum. -/
theorem pay_at (b0 b1 : Vec Ideal S5000x128 .f32) (b2 : Vec Ideal S128x128 .f32) (b3 : Vec Ideal S1x128 .f32)
    (b4 : Vec Ideal S128x256 .f32) (b5 : Vec Ideal S1x256 .f32) (p : Fin 5000) (q : Fin 256) :
    k0_pay1 (F := Ideal) b0 b1 b2 b3 b4 b5 (ix2 p q)
      = max (lin (fun k : Fin 128 => hid (fun j : Fin 128 => b0 (ix2 p j) + b1 (ix2 p j)) (fun j k => b2 (ix2 j k)) (fun k => b3 (ix2 (0 : Fin 1) k)) k) (fun k q => b4 (ix2 k q)) (fun q => b5 (ix2 (0 : Fin 1) q)) q) zero := by
  unfold k0_pay1 hid lin
  simp only [addf_apply, OpsAt.mm_128_128, OpsAt.mm_128_256, OpsAt.bias_128, OpsAt.bias_256, OpsAt.cast_5000x128, truncf_apply, maximumf_apply, broadcast_apply]
  rfl

/-- A tile whose blocks are rows `r = 5000 t + p` of the layer's tables computes, at `(p, q)`, the reference's
    table for this layer at `(r, q)`: both are the same function of row `r` of (neighbour sum + features). -/
theorem tile_at (b0 b1 : Vec Ideal S5000x128 .f32) (b2 : Vec Ideal S128x128 .f32) (b3 : Vec Ideal S1x128 .f32)
    (b4 : Vec Ideal S128x256 .f32) (b5 : Vec Ideal S1x256 .f32)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal))
    (p : Fin 5000) (q : Fin 256) (r : Fin 50000)
    (hA : ∀ j : Fin 128, b0 (ix2 p j) + b1 (ix2 p j) = Cert.ReferenceIdeal.Read.val_main_v14 (F := Ideal) x0 x1 (ix2 r j))
    (hWa : ∀ (j : Fin 128) (k : Fin 128), b2 (ix2 j k) = x2 (ix2 j k)) (hba : ∀ k : Fin 128, b3 (ix2 (0 : Fin 1) k) = x3 (ix1 k))
    (hWb : ∀ (k : Fin 128) (q : Fin 256), b4 (ix2 k q) = x4 (ix2 k q)) (hbb : ∀ q : Fin 256, b5 (ix2 (0 : Fin 1) q) = x5 (ix1 q)) :
    k0_pay1 (F := Ideal) b0 b1 b2 b3 b4 b5 (ix2 p q) = Cert.ReferenceIdeal.Read.val_main_v24 (F := Ideal) x0 x1 x2 x3 x4 x5 (ix2 r q) := by
  rw [pay_at, Cert.RefRows.layer1_row]
  generalize Cert.ReferenceIdeal.Read.val_main_v14 (F := Ideal) x0 x1 = Y at hA ⊢
  simp only [hA, hWa, hba, hWb, hbb]

/-! ## The windows' blocks -/

theorem hz : (![0, 0] : Fin 2 → Nat) = fun _ => 0 := funext fun a => by fin_cases a <;> rfl

/-- The printed index maps over the grid: the row-tiled windows (0, 1 and the output 6) sit at block row `t`,
    the four whole windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- A row-tiled input window's block at `t` is rows `5000 t …` of its table (window 0: the neighbour sums). -/
theorem blk0 (c : Dev nD) (t : Fin cfg0.N) (p : Fin 5000) (j : Fin 128) (r : Fin 50000) (hr : r.val = t.val * 5000 + p.val) :
    (iblk0 V c 0 t : Vec Ideal S5000x128 .f32) (ix2 p j) = (V c main_v13 : S50000x128.Idx → EReal) (ix2 r j) := by
  obtain ⟨e0, e1, -⟩ := idx_facts t
  unfold iblk0
  rw [View.read_apply]
  refine congrArg (V c main_v13 : S50000x128.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- Window 1: the features, the same rows. -/
theorem blk1 (c : Dev nD) (t : Fin cfg0.N) (p : Fin 5000) (j : Fin 128) (r : Fin 50000) (hr : r.val = t.val * 5000 + p.val) :
    (iblk0 V c 1 t : Vec Ideal S5000x128 .f32) (ix2 p j) = (V c main_arg0 : S50000x128.Idx → EReal) (ix2 r j) := by
  obtain ⟨-, -, e0, e1, -⟩ := idx_facts t
  unfold iblk0
  rw [View.read_apply]
  refine congrArg (V c main_arg0 : S50000x128.Idx → EReal) ?_
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * j.val = j.val; rw [e1]; omega

/-- Window 2: the first weight matrix, whole. -/
theorem blk2 (c : Dev nD) (t : Fin cfg0.N) (j : Fin 128) (k : Fin 128) :
    (iblk0 V c 2 t : Vec Ideal S128x128 .f32) (ix2 j k) = (V c main_arg2 : S128x128.Idx → EReal) (ix2 j k) := by
  obtain ⟨-, -, -, -, e0, e1, -⟩ := idx_facts t
  unfold iblk0
  rw [View.read_apply]
  refine congrArg (V c main_arg2 : S128x128.Idx → EReal) ?_
  funext a
  apply Fin.ext
  match a with
  | ⟨0, _⟩ => show win0_2.index t (0 : Fin 2) * 128 + 1 * j.val = j.val; rw [e0]; omega
  | ⟨1, _⟩ => show win0_2.index t (1 : Fin 2) * 128 + 1 * k.val = k.val; rw [e1]; omega

/-- Window 3: the first bias row, whole. -/
theorem blk3 (c : Dev nD) (t : Fin cfg0.N) (k : Fin 128) :
    (iblk0 V c 3 t : Vec Ideal S1x128 .f32) (ix2 (0 : Fin 1) k) = (V c main_v14 : S1x128.Idx → EReal) (ix2 (0 : Fin 1) k) := by
  obtain ⟨-, -, -, -, -, -, e0, e1, -⟩ := idx_facts t
  unfold iblk0
  rw [View.read_apply]
  refine congrArg (V c main_v14 : S1x128.Idx → EReal) ?_
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 128 + 1 * k.val = k.val; rw [e1]; omega

/-- Window 4: the second weight matrix, whole. -/
theorem blk4 (c : Dev nD) (t : Fin cfg0.N) (k : Fin 128) (q : Fin 256) :
    (iblk0 V c 4 t : Vec Ideal S128x256 .f32) (ix2 k q) = (V c main_arg4 : S128x256.Idx → EReal) (ix2 k q) := by
  obtain ⟨-, -, -, -, -, -, -, -, e0, e1, -⟩ := idx_facts t
  unfold iblk0
  rw [View.read_apply]
  refine congrArg (V c main_arg4 : S128x256.Idx → EReal) ?_
  funext a
  apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- Window 5: the second bias row, whole. -/
theorem blk5 (c : Dev nD) (t : Fin cfg0.N) (q : Fin 256) :
    (iblk0 V c 5 t : Vec Ideal S1x256 .f32) (ix2 (0 : Fin 1) q) = (V c main_v15 : S1x256.Idx → EReal) (ix2 (0 : Fin 1) q) := by
  obtain ⟨-, -, -, -, -, -, -, -, -, -, e0, e1, -⟩ := idx_facts t
  unfold iblk0
  rw [View.read_apply]
  refine congrArg (V c main_v15 : S1x256.Idx → EReal) ?_
  funext a
  apply Fin.ext
  match a with
  | ⟨0, _⟩ => show win0_5.index t (0 : Fin 2) * 1 + 1 * (0 : Fin 1).val = (0 : Fin 1).val; rw [e0]; rfl
  | ⟨1, _⟩ => show win0_5.index t (1 : Fin 2) * 256 + 1 * q.val = q.val; rw [e1]; omega

/-! ## What point `t` writes back, and the array the ten tiles leave -/

/-- What a write-back moves of a tile `P` is `P` itself, entry by entry (the window's blocks never overhang the array). -/
theorem cut_at (t : Fin cfg0.N) (P : S5000x256.Idx → EReal) (y : ((win0 6).xblock (grid0.coords t)).Idx) :
    (win0 6).cut (grid0.coords t) P y = P ((win0 6).xinj (grid0.coords t) y) := rfl

/-- Reading the output window's block at `t` off a table `G`: the table at the block's rows. -/
theorem read_at (t : Fin cfg0.N) (G : (⟨S50000x256, .f32⟩ : BufTy).Contents (Elt Ideal)) (y : ((win0 6).xblock (grid0.coords t)).Idx) :
    ((cfg0.win 6).blk t).view.read (Elt Ideal) G y = G (((cfg0.win 6).blk t).view.emb y) := by
  rw [View.read_apply]; rfl

/-- WHAT POINT `t` WRITES BACK is block `t` (rows `5000 t …`) of the reference's table for this layer. -/
theorem flushed_eq (c : Dev nD) (t : Fin cfg0.N)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal))
    (h0 : V c main_v13 = Cert.ReferenceIdeal.Read.val_main_v13 (F := Ideal) x0 x1) (h1 : V c main_arg0 = x0)
    (h2 : V c main_arg2 = x2) (h3 : V c main_v14 = shapeCast S1x128 x3 shapeCasts_S128_S1x128)
    (h4 : V c main_arg4 = x4) (h5 : V c main_v15 = shapeCast S1x256 x5 shapeCasts_S256_S1x256) :
    (dat0 V c).flushed 6 t = ((cfg0.win 6).blk t).view.read (Elt Ideal) (Cert.ReferenceIdeal.Read.val_main_v24 (F := Ideal) x0 x1 x2 x3 x4 x5) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz,
    View.ld_unit_zero (S := S128x256) hz, View.ld_unit_zero (S := S1x256) hz]
  funext y
  rw [cut_at t _ y]
  obtain ⟨p, q, hpq⟩ : ∃ (p : Fin 5000) (q : Fin 256), ((win0 6).xinj (grid0.coords t) y : S5000x256.Idx) = ix2 p q :=
    ⟨_, _, eq_ix2 _⟩
  rw [hpq]
  refine Eq.trans ?_ (read_at t (Cert.ReferenceIdeal.Read.val_main_v24 (F := Ideal) x0 x1 x2 x3 x4 x5) y).symm
  have hy0 : (y 0).val = p.val := congrArg (fun z : S5000x256.Idx => (z 0).val) hpq
  have hy1 : (y 1).val = q.val := congrArg (fun z : S5000x256.Idx => (z 1).val) hpq
  have ht : t.val < 10 := by have h := t.isLt; have hN : cfg0.N = 10 := N_0; omega
  have hp : p.val < 5000 := p.isLt
  obtain ⟨r, hr⟩ : ∃ r : Fin 50000, r.val = t.val * 5000 + p.val := ⟨⟨t.val * 5000 + p.val, by omega⟩, rfl⟩
  obtain ⟨-, -, -, -, -, -, -, -, -, -, -, -, e0, e1⟩ := idx_facts t
  have hemb : ((cfg0.win 6).blk t).view.emb y = (ix2 r q : S50000x256.Idx) := by
    funext a
    apply Fin.ext
    match a with
    | ⟨0, _⟩ => show win0_6.index t (0 : Fin 2) * 5000 + 1 * (y 0).val = r.val; rw [e0, hr, hy0]; omega
    | ⟨1, _⟩ => show win0_6.index t (1 : Fin 2) * 256 + 1 * (y 1).val = q.val; rw [e1, hy1]; omega
  rw [hemb]
  refine tile_at (iblk0 V c 0 t) (iblk0 V c 1 t) (iblk0 V c 2 t) (iblk0 V c 3 t) (iblk0 V c 4 t) (iblk0 V c 5 t)
    x0 x1 x2 x3 x4 x5 p q r ?_ ?_ ?_ ?_ ?_
  · intro j
    rw [blk0 V c t p j r hr, blk1 V c t p j r hr, h0, h1]
    exact (Cert.ReferenceIdeal.Read.val_main_v14_apply (F := Ideal) x0 x1 _).symm
  · intro j k; rw [blk2 V c t j k, h2]
  · intro k; rw [blk3 V c t k, h3]; exact OpsAt.row_128 x3 k
  · intro k q; rw [blk4 V c t k q, h4]
  · intro q; rw [blk5 V c t q, h5]; exact OpsAt.row_256 x5 q

/-- An index of the array is in point `t`'s block iff its row is in `5000 t … 5000 t + 4999`. -/
theorem mem_blk (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v16).slice (win0_6.rect t)).set ↔ _
  rw [View.set_slice_whole, Rect.mem_set_unit]
  exact Iff.rfl

/-- THE OUTPUT ARRAY after the region: the reference's table for this layer, whole — row `i` lies in the tile of
    point `i / 5000`, and every point flushes. -/
theorem out_array (c : Dev nD)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal))
    (h0 : V c main_v13 = Cert.ReferenceIdeal.Read.val_main_v13 (F := Ideal) x0 x1) (h1 : V c main_arg0 = x0)
    (h2 : V c main_arg2 = x2) (h3 : V c main_v14 = shapeCast S1x128 x3 shapeCasts_S128_S1x128)
    (h4 : V c main_arg4 = x4) (h5 : V c main_v15 = shapeCast S1x256 x5 shapeCasts_S256_S1x256) :
    (dat0 V c).arrAt 6 cfg0.N = Cert.ReferenceIdeal.Read.val_main_v24 (F := Ideal) x0 x1 x2 x3 x4 x5 :=
  (dat0 V c).arrAt_eq_of_cover 6 (Cert.ReferenceIdeal.Read.val_main_v24 (F := Ideal) x0 x1 x2 x3 x4 x5)
    (fun t _ => flushed_eq V c t x0 x1 x2 x3 x4 x5 h0 h1 h2 h3 h4 h5)
    (fun i => by
      have hi0 : (i 0).val < 50000 := (i 0).isLt
      have hi1 : (i 1).val < 256 := (i 1).isLt
      have hN : cfg0.N = 10 := N_0
      refine ⟨⟨(i 0).val / 5000, by rw [hN]; omega⟩, flush0_6 _, ?_⟩
      rw [mem_blk]
      obtain ⟨-, -, -, -, -, -, -, -, -, -, -, -, e0, e1⟩ := idx_facts ⟨(i 0).val / 5000, by rw [hN]; omega⟩
      intro a
      match a with
      | ⟨0, _⟩ => show win0_6.index _ (0 : Fin 2) * 5000 ≤ (i 0).val ∧ (i 0).val < win0_6.index _ (0 : Fin 2) * 5000 + 5000; rw [e0]; show (i 0).val / 5000 * 5000 ≤ _ ∧ _ < (i 0).val / 5000 * 5000 + 5000; omega
      | ⟨1, _⟩ => show win0_6.index _ (1 : Fin 2) * 256 ≤ (i 1).val ∧ (i 1).val < win0_6.index _ (1 : Fin 2) * 256 + 256; rw [e1]; omega)

end Cert.KernelIdeal.Region0

end
-- ==== Proof.Region1.lean ====
/-
  Region 1 (layer 2: 256 features, 256 hidden, 128 out, rectified): what the pipeline leaves in its output array.

  The region runs the layer's perceptron on ten tiles of 5000 rows.  At grid point `t` the two row-tiled
  inputs (the neighbour sum and the features) are staged at rows `5000 t … 5000 t + 4999`, the two weight
  matrices and the two bias rows whole, and the body's one store writes the tile's 5000 × 128 outputs, which
  are flushed to the same rows of the output array.  A row of the perceptron's output depends on the same
  row of its input only, so the tile written at `t` is rows `5000 t …` of ONE whole-table function — the
  reference's own table for this layer — and the ten tiles cover the array.
-/
import proofs.«181978_j11665131176543_1_alg».proof.Proof.Gen.KernelIdeal.Frame
import proofs.«181978_j11665131176543_1_alg».proof.Proof.Gen.ReferenceIdeal.Read
import proofs.«181978_j11665131176543_1_alg».proof.Proof.RowMLP
import proofs.«181978_j11665131176543_1_alg».proof.Proof.RefRows
import proofs.«181978_j11665131176543_1_alg».proof.Proof.OpsAt
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowMLP

/-! ## The body's arithmetic at one entry -/

/-- The stored tile at `(p, q)`: the rectified output row of the hidden row of row `p` of the two row-tiled blocks' sum. -/
theorem pay_at (b0 b1 : Vec Ideal S5000x256 .f32) (b2 : Vec Ideal S256x256 .f32) (b3 : Vec Ideal S1x256 .f32)
    (b4 : Vec Ideal S256x128 .f32) (b5 : Vec Ideal S1x128 .f32) (p : Fin 5000) (q : Fin 128) :
    k1_pay1 (F := Ideal) b0 b1 b2 b3 b4 b5 (ix2 p q)
      = max (lin (fun k : Fin 256 => hid (fun j : Fin 256 => b0 (ix2 p j) + b1 (ix2 p j)) (fun j k => b2 (ix2 j k)) (fun k => b3 (ix2 (0 : Fin 1) k)) k) (fun k q => b4 (ix2 k q)) (fun q => b5 (ix2 (0 : Fin 1) q)) q) zero := by
  unfold k1_pay1 hid lin
  simp only [addf_apply, OpsAt.mm_256_256, OpsAt.mm_256_128, OpsAt.bias_256, OpsAt.bias_128, OpsAt.cast_5000x256, truncf_apply, maximumf_apply, broadcast_apply]
  rfl

/-- A tile whose blocks are rows `r = 5000 t + p` of the layer's tables computes, at `(p, q)`, the reference's
    table for this layer at `(r, q)`: both are the same function of row `r` of (neighbour sum + features). -/
theorem tile_at (b0 b1 : Vec Ideal S5000x256 .f32) (b2 : Vec Ideal S256x256 .f32) (b3 : Vec Ideal S1x256 .f32)
    (b4 : Vec Ideal S256x128 .f32) (b5 : Vec Ideal S1x128 .f32)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal))
    (p : Fin 5000) (q : Fin 128) (r : Fin 50000)
    (hA : ∀ j : Fin 256, b0 (ix2 p j) + b1 (ix2 p j) = Cert.ReferenceIdeal.Read.val_main_v35 (F := Ideal) x0 x1 x2 x3 x4 x5 (ix2 r j))
    (hWa : ∀ (j : Fin 256) (k : Fin 256), b2 (ix2 j k) = x6 (ix2 j k)) (hba : ∀ k : Fin 256, b3 (ix2 (0 : Fin 1) k) = x7 (ix1 k))
    (hWb : ∀ (k : Fin 256) (q : Fin 128), b4 (ix2 k q) = x8 (ix2 k q)) (hbb : ∀ q : Fin 128, b5 (ix2 (0 : Fin 1) q) = x9 (ix1 q)) :
    k1_pay1 (F := Ideal) b0 b1 b2 b3 b4 b5 (ix2 p q) = Cert.ReferenceIdeal.Read.val_main_v45 (F := Ideal) x0 x1 x2 x3 x4 x5 x6 x7 x8 x9 (ix2 r q) := by
  rw [pay_at, Cert.RefRows.layer2_row]
  generalize Cert.ReferenceIdeal.Read.val_main_v35 (F := Ideal) x0 x1 x2 x3 x4 x5 = Y at hA ⊢
  simp only [hA, hWa, hba, hWb, hbb]

/-! ## The windows' blocks -/

theorem hz : (![0, 0] : Fin 2 → Nat) = fun _ => 0 := funext fun a => by fin_cases a <;> rfl

/-- The printed index maps over the grid: the row-tiled windows (0, 1 and the output 6) sit at block row `t`,
    the four whole windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- A row-tiled input window's block at `t` is rows `5000 t …` of its table (window 0: the neighbour sums). -/
theorem blk0 (c : Dev nD) (t : Fin cfg1.N) (p : Fin 5000) (j : Fin 256) (r : Fin 50000) (hr : r.val = t.val * 5000 + p.val) :
    (iblk1 V c 0 t : Vec Ideal S5000x256 .f32) (ix2 p j) = (V c main_v26 : S50000x256.Idx → EReal) (ix2 r j) := by
  obtain ⟨e0, e1, -⟩ := idx_facts t
  unfold iblk1
  rw [View.read_apply]
  refine congrArg (V c main_v26 : S50000x256.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 256 + 1 * j.val = j.val; rw [e1]; omega

/-- Window 1: the features, the same rows. -/
theorem blk1 (c : Dev nD) (t : Fin cfg1.N) (p : Fin 5000) (j : Fin 256) (r : Fin 50000) (hr : r.val = t.val * 5000 + p.val) :
    (iblk1 V c 1 t : Vec Ideal S5000x256 .f32) (ix2 p j) = (V c main_v16 : S50000x256.Idx → EReal) (ix2 r j) := by
  obtain ⟨-, -, e0, e1, -⟩ := idx_facts t
  unfold iblk1
  rw [View.read_apply]
  refine congrArg (V c main_v16 : S50000x256.Idx → EReal) ?_
  funext a
  apply Fin.ext
  match a with
  | ⟨0, _⟩ => show win1_1.index t (0 : Fin 2) * 5000 + 1 * p.val = r.val; rw [e0, hr]; omega
  | ⟨1, _⟩ => show win1_1.index t (1 : Fin 2) * 256 + 1 * j.val = j.val; rw [e1]; omega

/-- Window 2: the first weight matrix, whole. -/
theorem blk2 (c : Dev nD) (t : Fin cfg1.N) (j : Fin 256) (k : Fin 256) :
    (iblk1 V c 2 t : Vec Ideal S256x256 .f32) (ix2 j k) = (V c main_arg6 : S256x256.Idx → EReal) (ix2 j k) := by
  obtain ⟨-, -, -, -, e0, e1, -⟩ := idx_facts t
  unfold iblk1
  rw [View.read_apply]
  refine congrArg (V c main_arg6 : S256x256.Idx → EReal) ?_
  funext a
  apply Fin.ext
  match a with
  | ⟨0, _⟩ => show win1_2.index t (0 : Fin 2) * 256 + 1 * j.val = j.val; rw [e0]; omega
  | ⟨1, _⟩ => show win1_2.index t (1 : Fin 2) * 256 + 1 * k.val = k.val; rw [e1]; omega

/-- Window 3: the first bias row, whole. -/
theorem blk3 (c : Dev nD) (t : Fin cfg1.N) (k : Fin 256) :
    (iblk1 V c 3 t : Vec Ideal S1x256 .f32) (ix2 (0 : Fin 1) k) = (V c main_v27 : S1x256.Idx → EReal) (ix2 (0 : Fin 1) k) := by
  obtain ⟨-, -, -, -, -, -, e0, e1, -⟩ := idx_facts t
  unfold iblk1
  rw [View.read_apply]
  refine congrArg (V c main_v27 : S1x256.Idx → EReal) ?_
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 256 + 1 * k.val = k.val; rw [e1]; omega

/-- Window 4: the second weight matrix, whole. -/
theorem blk4 (c : Dev nD) (t : Fin cfg1.N) (k : Fin 256) (q : Fin 128) :
    (iblk1 V c 4 t : Vec Ideal S256x128 .f32) (ix2 k q) = (V c main_arg8 : S256x128.Idx → EReal) (ix2 k q) := by
  obtain ⟨-, -, -, -, -, -, -, -, e0, e1, -⟩ := idx_facts t
  unfold iblk1
  rw [View.read_apply]
  refine congrArg (V c main_arg8 : S256x128.Idx → EReal) ?_
  funext a
  apply Fin.ext
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- Window 5: the second bias row, whole. -/
theorem blk5 (c : Dev nD) (t : Fin cfg1.N) (q : Fin 128) :
    (iblk1 V c 5 t : Vec Ideal S1x128 .f32) (ix2 (0 : Fin 1) q) = (V c main_v28 : S1x128.Idx → EReal) (ix2 (0 : Fin 1) q) := by
  obtain ⟨-, -, -, -, -, -, -, -, -, -, e0, e1, -⟩ := idx_facts t
  unfold iblk1
  rw [View.read_apply]
  refine congrArg (V c main_v28 : S1x128.Idx → EReal) ?_
  funext a
  apply Fin.ext
  match a with
  | ⟨0, _⟩ => show win1_5.index t (0 : Fin 2) * 1 + 1 * (0 : Fin 1).val = (0 : Fin 1).val; rw [e0]; rfl
  | ⟨1, _⟩ => show win1_5.index t (1 : Fin 2) * 128 + 1 * q.val = q.val; rw [e1]; omega

/-! ## What point `t` writes back, and the array the ten tiles leave -/

/-- What a write-back moves of a tile `P` is `P` itself, entry by entry (the window's blocks never overhang the array). -/
theorem cut_at (t : Fin cfg1.N) (P : S5000x128.Idx → EReal) (y : ((win1 6).xblock (grid1.coords t)).Idx) :
    (win1 6).cut (grid1.coords t) P y = P ((win1 6).xinj (grid1.coords t) y) := rfl

/-- Reading the output window's block at `t` off a table `G`: the table at the block's rows. -/
theorem read_at (t : Fin cfg1.N) (G : (⟨S50000x128, .f32⟩ : BufTy).Contents (Elt Ideal)) (y : ((win1 6).xblock (grid1.coords t)).Idx) :
    ((cfg1.win 6).blk t).view.read (Elt Ideal) G y = G (((cfg1.win 6).blk t).view.emb y) := by
  rw [View.read_apply]; rfl

/-- WHAT POINT `t` WRITES BACK is block `t` (rows `5000 t …`) of the reference's table for this layer. -/
theorem flushed_eq (c : Dev nD) (t : Fin cfg1.N)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal))
    (h0 : V c main_v26 = Cert.ReferenceIdeal.Read.val_main_v34 (F := Ideal) x0 x1 x2 x3 x4 x5) (h1 : V c main_v16 = Cert.ReferenceIdeal.Read.val_main_v24 (F := Ideal) x0 x1 x2 x3 x4 x5)
    (h2 : V c main_arg6 = x6) (h3 : V c main_v27 = shapeCast S1x256 x7 shapeCasts_S256_S1x256)
    (h4 : V c main_arg8 = x8) (h5 : V c main_v28 = shapeCast S1x128 x9 shapeCasts_S128_S1x128) :
    (dat1 V c).flushed 6 t = ((cfg1.win 6).blk t).view.read (Elt Ideal) (Cert.ReferenceIdeal.Read.val_main_v45 (F := Ideal) x0 x1 x2 x3 x4 x5 x6 x7 x8 x9) := by
  show (cfg1.win 6).cut (grid1.coords t) ((dat1 V c).after 6 t) = _
  rw [after1_6]
  unfold out1_6
  rw [View.canon_unit_zero hz]
  simp only [View.ld_unit_zero (S := S5000x256) hz, View.ld_unit_zero (S := S256x256) hz, View.ld_unit_zero (S := S1x256) hz,
    View.ld_unit_zero (S := S256x128) hz, View.ld_unit_zero (S := S1x128) hz]
  funext y
  rw [cut_at t _ y]
  obtain ⟨p, q, hpq⟩ : ∃ (p : Fin 5000) (q : Fin 128), ((win1 6).xinj (grid1.coords t) y : S5000x128.Idx) = ix2 p q :=
    ⟨_, _, eq_ix2 _⟩
  rw [hpq]
  refine Eq.trans ?_ (read_at t (Cert.ReferenceIdeal.Read.val_main_v45 (F := Ideal) x0 x1 x2 x3 x4 x5 x6 x7 x8 x9) y).symm
  have hy0 : (y 0).val = p.val := congrArg (fun z : S5000x128.Idx => (z 0).val) hpq
  have hy1 : (y 1).val = q.val := congrArg (fun z : S5000x128.Idx => (z 1).val) hpq
  have ht : t.val < 10 := by have h := t.isLt; have hN : cfg1.N = 10 := N_1; omega
  have hp : p.val < 5000 := p.isLt
  obtain ⟨r, hr⟩ : ∃ r : Fin 50000, r.val = t.val * 5000 + p.val := ⟨⟨t.val * 5000 + p.val, by omega⟩, rfl⟩
  obtain ⟨-, -, -, -, -, -, -, -, -, -, -, -, e0, e1⟩ := idx_facts t
  have hemb : ((cfg1.win 6).blk t).view.emb y = (ix2 r q : S50000x128.Idx) := by
    funext a
    apply Fin.ext
    match a with
    | ⟨0, _⟩ => show win1_6.index t (0 : Fin 2) * 5000 + 1 * (y 0).val = r.val; rw [e0, hr, hy0]; omega
    | ⟨1, _⟩ => show win1_6.index t (1 : Fin 2) * 128 + 1 * (y 1).val = q.val; rw [e1, hy1]; omega
  rw [hemb]
  refine tile_at (iblk1 V c 0 t) (iblk1 V c 1 t) (iblk1 V c 2 t) (iblk1 V c 3 t) (iblk1 V c 4 t) (iblk1 V c 5 t)
    x0 x1 x2 x3 x4 x5 x6 x7 x8 x9 p q r ?_ ?_ ?_ ?_ ?_
  · intro j
    rw [blk0 V c t p j r hr, blk1 V c t p j r hr, h0, h1]
    exact (Cert.ReferenceIdeal.Read.val_main_v35_apply (F := Ideal) x0 x1 x2 x3 x4 x5 _).symm
  · intro j k; rw [blk2 V c t j k, h2]
  · intro k; rw [blk3 V c t k, h3]; exact OpsAt.row_256 x7 k
  · intro k q; rw [blk4 V c t k q, h4]
  · intro q; rw [blk5 V c t q, h5]; exact OpsAt.row_128 x9 q

/-- An index of the array is in point `t`'s block iff its row is in `5000 t … 5000 t + 4999`. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- THE OUTPUT ARRAY after the region: the reference's table for this layer, whole — row `i` lies in the tile of
    point `i / 5000`, and every point flushes. -/
theorem out_array (c : Dev nD)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal))
    (h0 : V c main_v26 = Cert.ReferenceIdeal.Read.val_main_v34 (F := Ideal) x0 x1 x2 x3 x4 x5) (h1 : V c main_v16 = Cert.ReferenceIdeal.Read.val_main_v24 (F := Ideal) x0 x1 x2 x3 x4 x5)
    (h2 : V c main_arg6 = x6) (h3 : V c main_v27 = shapeCast S1x256 x7 shapeCasts_S256_S1x256)
    (h4 : V c main_arg8 = x8) (h5 : V c main_v28 = shapeCast S1x128 x9 shapeCasts_S128_S1x128) :
    (dat1 V c).arrAt 6 cfg1.N = Cert.ReferenceIdeal.Read.val_main_v45 (F := Ideal) x0 x1 x2 x3 x4 x5 x6 x7 x8 x9 :=
  (dat1 V c).arrAt_eq_of_cover 6 (Cert.ReferenceIdeal.Read.val_main_v45 (F := Ideal) x0 x1 x2 x3 x4 x5 x6 x7 x8 x9)
    (fun t _ => flushed_eq V c t x0 x1 x2 x3 x4 x5 x6 x7 x8 x9 h0 h1 h2 h3 h4 h5)
    (fun i => by
      have hi0 : (i 0).val < 50000 := (i 0).isLt
      have hi1 : (i 1).val < 128 := (i 1).isLt
      have hN : cfg1.N = 10 := N_1
      refine ⟨⟨(i 0).val / 5000, by rw [hN]; omega⟩, flush1_6 _, ?_⟩
      rw [mem_blk]
      obtain ⟨-, -, -, -, -, -, -, -, -, -, -, -, e0, e1⟩ := idx_facts ⟨(i 0).val / 5000, by rw [hN]; omega⟩
      intro a
      match a with
      | ⟨0, _⟩ => show win1_6.index _ (0 : Fin 2) * 5000 ≤ (i 0).val ∧ (i 0).val < win1_6.index _ (0 : Fin 2) * 5000 + 5000; rw [e0]; show (i 0).val / 5000 * 5000 ≤ _ ∧ _ < (i 0).val / 5000 * 5000 + 5000; omega
      | ⟨1, _⟩ => show win1_6.index _ (1 : Fin 2) * 128 ≤ (i 1).val ∧ (i 1).val < win1_6.index _ (1 : Fin 2) * 128 + 128; rw [e1]; omega)

end Cert.KernelIdeal.Region1

end
-- ==== Proof.Region2.lean ====
/-
  Region 2 (layer 3: 128 features, 128 hidden, 128 out, no rectifier after it): what the pipeline leaves in its output array — the program's result.

  The region runs the layer's perceptron on ten tiles of 5000 rows.  At grid point `t` the two row-tiled
  inputs (the neighbour sum and the features) are staged at rows `5000 t … 5000 t + 4999`, the two weight
  matrices and the two bias rows whole, and the body's one store writes the tile's 5000 × 128 outputs, which
  are flushed to the same rows of the output array.  A row of the perceptron's output depends on the same
  row of its input only, so the tile written at `t` is rows `5000 t …` of ONE whole-table function — the
  reference's own table for this layer — and the ten tiles cover the array.
-/
import proofs.«181978_j11665131176543_1_alg».proof.Proof.Gen.KernelIdeal.Frame
import proofs.«181978_j11665131176543_1_alg».proof.Proof.Gen.ReferenceIdeal.Read
import proofs.«181978_j11665131176543_1_alg».proof.Proof.RowMLP
import proofs.«181978_j11665131176543_1_alg».proof.Proof.RefRows
import proofs.«181978_j11665131176543_1_alg».proof.Proof.OpsAt
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowMLP

/-! ## The body's arithmetic at one entry -/

/-- The stored tile at `(p, q)`: the output row of the hidden row of row `p` of the two row-tiled blocks' sum. -/
theorem pay_at (b0 b1 : Vec Ideal S5000x128 .f32) (b2 : Vec Ideal S128x128 .f32) (b3 : Vec Ideal S1x128 .f32)
    (b4 : Vec Ideal S128x128 .f32) (b5 : Vec Ideal S1x128 .f32) (p : Fin 5000) (q : Fin 128) :
    k2_pay1 (F := Ideal) b0 b1 b2 b3 b4 b5 (ix2 p q)
      = lin (fun k : Fin 128 => hid (fun j : Fin 128 => b0 (ix2 p j) + b1 (ix2 p j)) (fun j k => b2 (ix2 j k)) (fun k => b3 (ix2 (0 : Fin 1) k)) k) (fun k q => b4 (ix2 k q)) (fun q => b5 (ix2 (0 : Fin 1) q)) q := by
  unfold k2_pay1 hid lin
  simp only [addf_apply, OpsAt.mm_128_128, OpsAt.bias_128, OpsAt.cast_5000x128, truncf_apply, maximumf_apply, broadcast_apply]
  rfl

/-- A tile whose blocks are rows `r = 5000 t + p` of the layer's tables computes, at `(p, q)`, the reference's
    table for this layer at `(r, q)`: both are the same function of row `r` of (neighbour sum + features). -/
theorem tile_at (b0 b1 : Vec Ideal S5000x128 .f32) (b2 : Vec Ideal S128x128 .f32) (b3 : Vec Ideal S1x128 .f32)
    (b4 : Vec Ideal S128x128 .f32) (b5 : Vec Ideal S1x128 .f32)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))
    (p : Fin 5000) (q : Fin 128) (r : Fin 50000)
    (hA : ∀ j : Fin 128, b0 (ix2 p j) + b1 (ix2 p j) = Cert.ReferenceIdeal.Read.val_main_v56 (F := Ideal) x0 x1 x2 x3 x4 x5 x6 x7 x8 x9 (ix2 r j))
    (hWa : ∀ (j : Fin 128) (k : Fin 128), b2 (ix2 j k) = x10 (ix2 j k)) (hba : ∀ k : Fin 128, b3 (ix2 (0 : Fin 1) k) = x11 (ix1 k))
    (hWb : ∀ (k : Fin 128) (q : Fin 128), b4 (ix2 k q) = x12 (ix2 k q)) (hbb : ∀ q : Fin 128, b5 (ix2 (0 : Fin 1) q) = x13 (ix1 q)) :
    k2_pay1 (F := Ideal) b0 b1 b2 b3 b4 b5 (ix2 p q) = Cert.ReferenceIdeal.Read.val_main_v65 (F := Ideal) x0 x1 x2 x3 x4 x5 x6 x7 x8 x9 x10 x11 x12 x13 (ix2 r q) := by
  rw [pay_at, Cert.RefRows.layer3_row]
  generalize Cert.ReferenceIdeal.Read.val_main_v56 (F := Ideal) x0 x1 x2 x3 x4 x5 x6 x7 x8 x9 = Y at hA ⊢
  simp only [hA, hWa, hba, hWb, hbb]

/-! ## The windows' blocks -/

theorem hz : (![0, 0] : Fin 2 → Nat) = fun _ => 0 := funext fun a => by fin_cases a <;> rfl

/-- The printed index maps over the grid: the row-tiled windows (0, 1 and the output 6) sit at block row `t`,
    the four whole windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- A row-tiled input window's block at `t` is rows `5000 t …` of its table (window 0: the neighbour sums). -/
theorem blk0 (c : Dev nD) (t : Fin cfg2.N) (p : Fin 5000) (j : Fin 128) (r : Fin 50000) (hr : r.val = t.val * 5000 + p.val) :
    (iblk2 V c 0 t : Vec Ideal S5000x128 .f32) (ix2 p j) = (V c main_v39 : S50000x128.Idx → EReal) (ix2 r j) := by
  obtain ⟨e0, e1, -⟩ := idx_facts t
  unfold iblk2
  rw [View.read_apply]
  refine congrArg (V c main_v39 : S50000x128.Idx → EReal) ?_
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * j.val = j.val; rw [e1]; omega

/-- Window 1: the features, the same rows. -/
theorem blk1 (c : Dev nD) (t : Fin cfg2.N) (p : Fin 5000) (j : Fin 128) (r : Fin 50000) (hr : r.val = t.val * 5000 + p.val) :
    (iblk2 V c 1 t : Vec Ideal S5000x128 .f32) (ix2 p j) = (V c main_v29 : S50000x128.Idx → EReal) (ix2 r j) := by
  obtain ⟨-, -, e0, e1, -⟩ := idx_facts t
  unfold iblk2
  rw [View.read_apply]
  refine congrArg (V c main_v29 : S50000x128.Idx → EReal) ?_
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * j.val = j.val; rw [e1]; omega

/-- Window 2: the first weight matrix, whole. -/
theorem blk2 (c : Dev nD) (t : Fin cfg2.N) (j : Fin 128) (k : Fin 128) :
    (iblk2 V c 2 t : Vec Ideal S128x128 .f32) (ix2 j k) = (V c main_arg10 : S128x128.Idx → EReal) (ix2 j k) := by
  obtain ⟨-, -, -, -, e0, e1, -⟩ := idx_facts t
  unfold iblk2
  rw [View.read_apply]
  refine congrArg (V c main_arg10 : S128x128.Idx → EReal) ?_
  funext a
  apply Fin.ext
  match a with
  | ⟨0, _⟩ => show win2_2.index t (0 : Fin 2) * 128 + 1 * j.val = j.val; rw [e0]; omega
  | ⟨1, _⟩ => show win2_2.index t (1 : Fin 2) * 128 + 1 * k.val = k.val; rw [e1]; omega

/-- Window 3: the first bias row, whole. -/
theorem blk3 (c : Dev nD) (t : Fin cfg2.N) (k : Fin 128) :
    (iblk2 V c 3 t : Vec Ideal S1x128 .f32) (ix2 (0 : Fin 1) k) = (V c main_v40 : S1x128.Idx → EReal) (ix2 (0 : Fin 1) k) := by
  obtain ⟨-, -, -, -, -, -, e0, e1, -⟩ := idx_facts t
  unfold iblk2
  rw [View.read_apply]
  refine congrArg (V c main_v40 : S1x128.Idx → EReal) ?_
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 128 + 1 * k.val = k.val; rw [e1]; omega

/-- Window 4: the second weight matrix, whole. -/
theorem blk4 (c : Dev nD) (t : Fin cfg2.N) (k : Fin 128) (q : Fin 128) :
    (iblk2 V c 4 t : Vec Ideal S128x128 .f32) (ix2 k q) = (V c main_arg12 : S128x128.Idx → EReal) (ix2 k q) := by
  obtain ⟨-, -, -, -, -, -, -, -, e0, e1, -⟩ := idx_facts t
  unfold iblk2
  rw [View.read_apply]
  refine congrArg (V c main_arg12 : S128x128.Idx → EReal) ?_
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- Window 5: the second bias row, whole. -/
theorem blk5 (c : Dev nD) (t : Fin cfg2.N) (q : Fin 128) :
    (iblk2 V c 5 t : Vec Ideal S1x128 .f32) (ix2 (0 : Fin 1) q) = (V c main_v41 : S1x128.Idx → EReal) (ix2 (0 : Fin 1) q) := by
  obtain ⟨-, -, -, -, -, -, -, -, -, -, e0, e1, -⟩ := idx_facts t
  unfold iblk2
  rw [View.read_apply]
  refine congrArg (V c main_v41 : S1x128.Idx → EReal) ?_
  funext a
  apply Fin.ext
  match a with
  | ⟨0, _⟩ => show win2_5.index t (0 : Fin 2) * 1 + 1 * (0 : Fin 1).val = (0 : Fin 1).val; rw [e0]; rfl
  | ⟨1, _⟩ => show win2_5.index t (1 : Fin 2) * 128 + 1 * q.val = q.val; rw [e1]; omega

/-! ## What point `t` writes back, and the array the ten tiles leave -/

/-- What a write-back moves of a tile `P` is `P` itself, entry by entry (the window's blocks never overhang the array). -/
theorem cut_at (t : Fin cfg2.N) (P : S5000x128.Idx → EReal) (y : ((win2 6).xblock (grid2.coords t)).Idx) :
    (win2 6).cut (grid2.coords t) P y = P ((win2 6).xinj (grid2.coords t) y) := rfl

/-- Reading the output window's block at `t` off a table `G`: the table at the block's rows. -/
theorem read_at (t : Fin cfg2.N) (G : (⟨S50000x128, .f32⟩ : BufTy).Contents (Elt Ideal)) (y : ((win2 6).xblock (grid2.coords t)).Idx) :
    ((cfg2.win 6).blk t).view.read (Elt Ideal) G y = G (((cfg2.win 6).blk t).view.emb y) := by
  rw [View.read_apply]; rfl

/-- WHAT POINT `t` WRITES BACK is block `t` (rows `5000 t …`) of the reference's table for this layer. -/
theorem flushed_eq (c : Dev nD) (t : Fin cfg2.N)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))
    (h0 : V c main_v39 = Cert.ReferenceIdeal.Read.val_main_v55 (F := Ideal) x0 x1 x2 x3 x4 x5 x6 x7 x8 x9) (h1 : V c main_v29 = Cert.ReferenceIdeal.Read.val_main_v45 (F := Ideal) x0 x1 x2 x3 x4 x5 x6 x7 x8 x9)
    (h2 : V c main_arg10 = x10) (h3 : V c main_v40 = shapeCast S1x128 x11 shapeCasts_S128_S1x128)
    (h4 : V c main_arg12 = x12) (h5 : V c main_v41 = shapeCast S1x128 x13 shapeCasts_S128_S1x128) :
    (dat2 V c).flushed 6 t = ((cfg2.win 6).blk t).view.read (Elt Ideal) (Cert.ReferenceIdeal.Read.val_main_v65 (F := Ideal) x0 x1 x2 x3 x4 x5 x6 x7 x8 x9 x10 x11 x12 x13) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz,
    View.ld_unit_zero (S := S128x128) hz, View.ld_unit_zero (S := S1x128) hz]
  funext y
  rw [cut_at t _ y]
  obtain ⟨p, q, hpq⟩ : ∃ (p : Fin 5000) (q : Fin 128), ((win2 6).xinj (grid2.coords t) y : S5000x128.Idx) = ix2 p q :=
    ⟨_, _, eq_ix2 _⟩
  rw [hpq]
  refine Eq.trans ?_ (read_at t (Cert.ReferenceIdeal.Read.val_main_v65 (F := Ideal) x0 x1 x2 x3 x4 x5 x6 x7 x8 x9 x10 x11 x12 x13) y).symm
  have hy0 : (y 0).val = p.val := congrArg (fun z : S5000x128.Idx => (z 0).val) hpq
  have hy1 : (y 1).val = q.val := congrArg (fun z : S5000x128.Idx => (z 1).val) hpq
  have ht : t.val < 10 := by have h := t.isLt; have hN : cfg2.N = 10 := N_2; omega
  have hp : p.val < 5000 := p.isLt
  obtain ⟨r, hr⟩ : ∃ r : Fin 50000, r.val = t.val * 5000 + p.val := ⟨⟨t.val * 5000 + p.val, by omega⟩, rfl⟩
  obtain ⟨-, -, -, -, -, -, -, -, -, -, -, -, e0, e1⟩ := idx_facts t
  have hemb : ((cfg2.win 6).blk t).view.emb y = (ix2 r q : S50000x128.Idx) := by
    funext a
    apply Fin.ext
    match a with
    | ⟨0, _⟩ => show win2_6.index t (0 : Fin 2) * 5000 + 1 * (y 0).val = r.val; rw [e0, hr, hy0]; omega
    | ⟨1, _⟩ => show win2_6.index t (1 : Fin 2) * 128 + 1 * (y 1).val = q.val; rw [e1, hy1]; omega
  rw [hemb]
  refine tile_at (iblk2 V c 0 t) (iblk2 V c 1 t) (iblk2 V c 2 t) (iblk2 V c 3 t) (iblk2 V c 4 t) (iblk2 V c 5 t)
    x0 x1 x2 x3 x4 x5 x6 x7 x8 x9 x10 x11 x12 x13 p q r ?_ ?_ ?_ ?_ ?_
  · intro j
    rw [blk0 V c t p j r hr, blk1 V c t p j r hr, h0, h1]
    exact (Cert.ReferenceIdeal.Read.val_main_v56_apply (F := Ideal) x0 x1 x2 x3 x4 x5 x6 x7 x8 x9 _).symm
  · intro j k; rw [blk2 V c t j k, h2]
  · intro k; rw [blk3 V c t k, h3]; exact OpsAt.row_128 x11 k
  · intro k q; rw [blk4 V c t k q, h4]
  · intro q; rw [blk5 V c t q, h5]; exact OpsAt.row_128 x13 q

/-- An index of the array is in point `t`'s block iff its row is in `5000 t … 5000 t + 4999`. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v42).slice (win2_6.rect t)).set ↔ _
  rw [View.set_slice_whole, Rect.mem_set_unit]
  exact Iff.rfl

/-- THE OUTPUT ARRAY after the region: the reference's table for this layer, whole — row `i` lies in the tile of
    point `i / 5000`, and every point flushes. -/
theorem out_array (c : Dev nD)
    (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))
    (h0 : V c main_v39 = Cert.ReferenceIdeal.Read.val_main_v55 (F := Ideal) x0 x1 x2 x3 x4 x5 x6 x7 x8 x9) (h1 : V c main_v29 = Cert.ReferenceIdeal.Read.val_main_v45 (F := Ideal) x0 x1 x2 x3 x4 x5 x6 x7 x8 x9)
    (h2 : V c main_arg10 = x10) (h3 : V c main_v40 = shapeCast S1x128 x11 shapeCasts_S128_S1x128)
    (h4 : V c main_arg12 = x12) (h5 : V c main_v41 = shapeCast S1x128 x13 shapeCasts_S128_S1x128) :
    (dat2 V c).arrAt 6 cfg2.N = Cert.ReferenceIdeal.Read.val_main_v65 (F := Ideal) x0 x1 x2 x3 x4 x5 x6 x7 x8 x9 x10 x11 x12 x13 :=
  (dat2 V c).arrAt_eq_of_cover 6 (Cert.ReferenceIdeal.Read.val_main_v65 (F := Ideal) x0 x1 x2 x3 x4 x5 x6 x7 x8 x9 x10 x11 x12 x13)
    (fun t _ => flushed_eq V c t x0 x1 x2 x3 x4 x5 x6 x7 x8 x9 x10 x11 x12 x13 h0 h1 h2 h3 h4 h5)
    (fun i => by
      have hi0 : (i 0).val < 50000 := (i 0).isLt
      have hi1 : (i 1).val < 128 := (i 1).isLt
      have hN : cfg2.N = 10 := N_2
      refine ⟨⟨(i 0).val / 5000, by rw [hN]; omega⟩, flush2_6 _, ?_⟩
      rw [mem_blk]
      obtain ⟨-, -, -, -, -, -, -, -, -, -, -, -, e0, e1⟩ := idx_facts ⟨(i 0).val / 5000, by rw [hN]; omega⟩
      intro a
      match a with
      | ⟨0, _⟩ => show win2_6.index _ (0 : Fin 2) * 5000 ≤ (i 0).val ∧ (i 0).val < win2_6.index _ (0 : Fin 2) * 5000 + 5000; rw [e0]; show (i 0).val / 5000 * 5000 ≤ _ ∧ _ < (i 0).val / 5000 * 5000 + 5000; omega
      | ⟨1, _⟩ => show win2_6.index _ (1 : Fin 2) * 128 ≤ (i 1).val ∧ (i 1).val < win2_6.index _ (1 : Fin 2) * 128 + 128; rw [e1]; omega)

end Cert.KernelIdeal.Region2

end
-- ==== Proof.lean ====
/-
  The certificate: a three-layer graph network, kernel against reference, over the extended reals.

  Each layer takes a table of node features, adds to every node's row the sum of its neighbours' rows (a
  gather along the edge list and a scatter-add, the same two host operations in both programs), and sends
  every row through a two-layer perceptron: `max(A·Wa + ba, 0)·Wb + bb`, rectified once more in the first
  two layers.  The reference computes each perceptron on the whole 50000-row table with two host matrix
  products; the kernel computes it in one region per layer, ten tiles of 5000 rows, with two in-kernel
  products per tile whose operands pass through a narrower float format on the way.  At the ideal values a
  change of format is the identity and both kinds of product are the same finite sum, and a row of the
  perceptron's output depends on the same row of its input only; so tile `t` of a region's output is rows
  `5000 t … 5000 t + 4999` of the reference's table for that layer, and the ten tiles cover it (modules
  Region0, Region1, Region2, over RowMLP, RefRows and OpsAt).  Between the regions the kernel's host
  operations are the reference's own, applied to equal tables (HostRead), so following the contents of the
  buffers from boundary to boundary (Chain) the returned buffer ends at the reference's result as a function
  of the launch arrays (KRun: the frame's launch theorem read once more with that buffer named).  No law
  of the extended reals beyond this re-tiling is used, so the precondition is never opened.

  The three frames are the generated ones (the reference's is its generated run with the result dropped);
  the idealization rewrote nothing, so there is nothing to preserve.
-/
import proofs.«181978_j11665131176543_1_alg».proof.Defs
import proofs.«181978_j11665131176543_1_alg».proof.Proof.Gen.Kernel
import proofs.«181978_j11665131176543_1_alg».proof.Proof.Gen.Kernel.Skeleton
import proofs.«181978_j11665131176543_1_alg».proof.Proof.Gen.Kernel.Launch
import proofs.«181978_j11665131176543_1_alg».proof.Proof.Gen.Kernel.Points
import proofs.«181978_j11665131176543_1_alg».proof.Proof.Gen.Kernel.Frame
import proofs.«181978_j11665131176543_1_alg».proof.Proof.Gen.KernelIdeal
import proofs.«181978_j11665131176543_1_alg».proof.Proof.Gen.KernelIdeal.Skeleton
import proofs.«181978_j11665131176543_1_alg».proof.Proof.Gen.KernelIdeal.Launch
import proofs.«181978_j11665131176543_1_alg».proof.Proof.Gen.KernelIdeal.Points
import proofs.«181978_j11665131176543_1_alg».proof.Proof.Gen.KernelIdeal.Frame
import proofs.«181978_j11665131176543_1_alg».proof.Proof.Gen.ReferenceIdeal
import proofs.«181978_j11665131176543_1_alg».proof.Proof.Gen.Pre_finite_inputs
import proofs.«181978_j11665131176543_1_alg».proof.Proof.Gen.ReferenceIdeal.Run
import proofs.«181978_j11665131176543_1_alg».proof.Proof.Gen.ReferenceIdeal.Read
import proofs.«181978_j11665131176543_1_alg».proof.Proof.KRun
import proofs.«181978_j11665131176543_1_alg».proof.Proof.Chain
import proofs.«181978_j11665131176543_1_alg».proof.Proof.Region0
import proofs.«181978_j11665131176543_1_alg».proof.Proof.Region1
import proofs.«181978_j11665131176543_1_alg».proof.Proof.Region2
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference's frame is its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From memories that agree on the arguments both programs end with the same table: the reference's result stage
    of the launch arrays — the kernel's returned buffer by the walk through its boundaries, the reference's by its
    own run. -/
theorem algebraic : Cert.algebraic_KernelIdeal_ReferenceIdeal := by
  intro m ρ m' ρ' _ hagree
  refine ⟨fun c => Cert.ReferenceIdeal.Read.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run (Cert.KernelIdeal.defs (F := Ideal)) _ _).mono
      (fun r h c => ⟨(h c).1.trans (Cert.KernelIdeal.Chain.result_eq m ρ Cert.KernelIdeal.Region0.out_array Cert.KernelIdeal.Region1.out_array
        Cert.KernelIdeal.Region2.out_array c), (h c).2⟩)
      (Cert.KernelIdeal.KRun.run_named (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v65_eq]
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
